-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S100000 : Shape := ⟨1, ![100000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S3x64 .f32) (main_arg7 : FVec F S64x64 .f32) (main_arg8 : FVec F S64 .f32) (main_arg9 : FVec F S64x1 .f32) (main_arg10 : FVec F S1 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1250000 32) (main_arg2 : IVec S100000 32) (main_arg3 : FVec F S3x64x64 .f32) (main_arg4 : FVec F S3x64 .f32) (main_arg5 : FVec F S3x64x64 .f32) (main_arg6 : FVec F S3x64 .f32) (main_arg7 : FVec F S64x64 .f32) (main_arg8 : FVec F S64 .f32) (main_arg9 : FVec F S64x1 .f32) (main_arg10 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1250000 : Shape := ⟨2, ![2, 1250000]⟩
abbrev S100000 : Shape := ⟨1, ![100000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x64x64 : Shape := ⟨3, ![1, 64, 64]⟩
abbrev S1x64 : Shape := ⟨2, ![1, 64]⟩
abbrev S10000x64 : Shape := ⟨2, ![10000, 64]⟩
abbrev S1024x64 : Shape := ⟨2, ![1024, 64]⟩
abbrev S100000x1 : Shape := ⟨2, ![100000, 1]⟩
abbrev S1x1 : Shape := ⟨2, ![1, 1]⟩
abbrev S1024x1 : Shape := ⟨2, ![1024, 1]⟩

abbrev nBuf : Space → Nat
  | .hbm => 94
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S100000, .i32⟩
  | .hbm, ⟨3, _⟩ => ⟨S3x64x64, .f32⟩
  | .hbm, ⟨4, _⟩ => ⟨S3x64, .f32⟩
  | .hbm, ⟨5, _⟩ => ⟨S3x64x64, .f32⟩
  | .hbm, ⟨6, _⟩ => ⟨S3x64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S1x1250000, .i32⟩
  | .hbm, ⟨12, _⟩ => ⟨S1250000, .i32⟩
  | .hbm, ⟨13, _⟩ => ⟨S1x1250000, .i32⟩
  | .hbm, ⟨14, _⟩ => ⟨S1250000, .i32⟩
  | .hbm, ⟨15, _⟩ => ⟨S_, .i32⟩
  | .hbm, ⟨16, _⟩ => ⟨S1250000, .i32⟩
  | .hbm, ⟨17, _⟩ => ⟨S1250000, .i1⟩
  | .hbm, ⟨18, _⟩ => ⟨S_, .i32⟩
  | .hbm, ⟨19, _⟩ => ⟨S1250000, .i32⟩
  | .hbm, ⟨20, _⟩ => ⟨S1250000, .i32⟩
  | .hbm, ⟨21, _⟩ => ⟨S1250000, .i32⟩
  | .hbm, ⟨22, _⟩ => ⟨S1250000x1, .i32⟩
  | .hbm, ⟨23, _⟩ => ⟨S1250000x64, .f32⟩
  | .hbm, ⟨24, _⟩ => ⟨S_, .f32⟩
  | .hbm, ⟨25, _⟩ => ⟨S100000x64, .f32⟩
  | .hbm, ⟨26, _⟩ => ⟨S1250000x1, .i32⟩
  | .hbm, ⟨27, _⟩ => ⟨S100000x64, .f32⟩
  | .hbm, ⟨28, _⟩ => ⟨S1x64x64, .f32⟩
  | .hbm, ⟨29, _⟩ => ⟨S64x64, .f32⟩
  | .hbm, ⟨30, _⟩ => ⟨S1x64, .f32⟩
  | .hbm, ⟨31, _⟩ => ⟨S64, .f32⟩
  | .hbm, ⟨32, _⟩ => ⟨S1x64x64, .f32⟩
  | .hbm, ⟨33, _⟩ => ⟨S64x64, .f32⟩
  | .hbm, ⟨34, _⟩ => ⟨S1x64, .f32⟩
  | .hbm, ⟨35, _⟩ => ⟨S64, .f32⟩
  | .hbm, ⟨36, _⟩ => ⟨S1x64, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S1250000, .i32⟩
  | .hbm, ⟨41, _⟩ => ⟨S1250000, .i1⟩
  | .hbm, ⟨42, _⟩ => ⟨S_, .i32⟩
  | .hbm, ⟨43, _⟩ => ⟨S1250000, .i32⟩
  | .hbm, ⟨44, _⟩ => ⟨S1250000, .i32⟩
  | .hbm, ⟨45, _⟩ => ⟨S1250000, .i32⟩
  | .hbm, ⟨46, _⟩ => ⟨S1250000x1, .i32⟩
  | .hbm, ⟨47, _⟩ => ⟨S1250000x64, .f32⟩
  | .hbm, ⟨48, _⟩ => ⟨S_, .f32⟩
  | .hbm, ⟨49, _⟩ => ⟨S100000x64, .f32⟩
  | .hbm, ⟨50, _⟩ => ⟨S1250000x1, .i32⟩
  | .hbm, ⟨51, _⟩ => ⟨S100000x64, .f32⟩
  | .hbm, ⟨52, _⟩ => ⟨S1x64x64, .f32⟩
  | .hbm, ⟨53, _⟩ => ⟨S64x64, .f32⟩
  | .hbm, ⟨54, _⟩ => ⟨S1x64, .f32⟩
  | .hbm, ⟨55, _⟩ => ⟨S64, .f32⟩
  | .hbm, ⟨56, _⟩ => ⟨S1x64x64, .f32⟩
  | .hbm, ⟨57, _⟩ => ⟨S64x64, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S1x64, .f32⟩
  | .hbm, ⟨62, _⟩ => ⟨S100000x64, .f32⟩
  | .hbm, ⟨63, _⟩ => ⟨S_, .i32⟩
  | .hbm, ⟨64, _⟩ => ⟨S1250000, .i32⟩
  | .hbm, ⟨65, _⟩ => ⟨S1250000, .i1⟩
  | .hbm, ⟨66, _⟩ => ⟨S_, .i32⟩
  | .hbm, ⟨67, _⟩ => ⟨S1250000, .i32⟩
  | .hbm, ⟨68, _⟩ => ⟨S1250000, .i32⟩
  | .hbm, ⟨69, _⟩ => ⟨S1250000, .i32⟩
  | .hbm, ⟨70, _⟩ => ⟨S1250000x1, .i32⟩
  | .hbm, ⟨71, _⟩ => ⟨S1250000x64, .f32⟩
  | .hbm, ⟨72, _⟩ => ⟨S_, .f32⟩
  | .hbm, ⟨73, _⟩ => ⟨S100000x64, .f32⟩
  | .hbm, ⟨74, _⟩ => ⟨S1250000x1, .i32⟩
  | .hbm, ⟨75, _⟩ => ⟨S100000x64, .f32⟩
  | .hbm, ⟨76, _⟩ => ⟨S1x64x64, .f32⟩
  | .hbm, ⟨77, _⟩ => ⟨S64x64, .f32⟩
  | .hbm, ⟨78, _⟩ => ⟨S1x64, .f32⟩
  | .hbm, ⟨79, _⟩ => ⟨S64, .f32⟩
  | .hbm, ⟨80, _⟩ => ⟨S1x64x64, .f32⟩
  | .hbm, ⟨81, _⟩ => ⟨S64x64, .f32⟩
  | .hbm, ⟨82, _⟩ => ⟨S1x64, .f32⟩
  | .hbm, ⟨83, _⟩ => ⟨S64, .f32⟩
  | .hbm, ⟨84, _⟩ => ⟨S1x64, .f32⟩
  | .hbm, ⟨85, _⟩ => ⟨S1x64, .f32⟩
  | .hbm, ⟨86, _⟩ => ⟨S100000x64, .f32⟩
  | .hbm, ⟨87, _⟩ => ⟨S_, .f32⟩
  | .hbm, ⟨88, _⟩ => ⟨S1024x64, .f32⟩
  | .hbm, ⟨89, _⟩ => ⟨S100000x1, .i32⟩
  | .hbm, ⟨90, _⟩ => ⟨S1024x64, .f32⟩
  | .hbm, ⟨91, _⟩ => ⟨S1x64, .f32⟩
  | .hbm, ⟨92, _⟩ => ⟨S1x1, .f32⟩
  | .hbm, ⟨93, _⟩ => ⟨S1024x1, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S1024x64, .f32⟩
  | .local _ .vmem, ⟨31, _⟩ => ⟨S64x64, .f32⟩
  | .local _ .vmem, ⟨32, _⟩ => ⟨S1x64, .f32⟩
  | .local _ .vmem, ⟨33, _⟩ => ⟨S64x1, .f32⟩
  | .local _ .vmem, ⟨34, _⟩ => ⟨S1x1, .f32⟩
  | .local _ .vmem, ⟨35, _⟩ => ⟨S1024x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_1 : Ref sig .tc := ⟨.hbm, 39, rfl⟩
abbrev main_v25 : Ref sig .tc := ⟨.hbm, 40, rfl⟩
abbrev main_v26 : Ref sig .tc := ⟨.hbm, 41, rfl⟩
abbrev main_c_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_4 : Ref sig .tc := ⟨.hbm, 63, rfl⟩
abbrev main_v46 : Ref sig .tc := ⟨.hbm, 64, rfl⟩
abbrev main_v47 : Ref sig .tc := ⟨.hbm, 65, rfl⟩
abbrev main_c_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_7 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1024x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S1024x64 : S_.BroadcastsInDim S1024x64 (![] : Fin 0 → Fin S1024x64.rank)
  bcast_S100000_S100000x1_0 : S100000.BroadcastsInDim S100000x1 (![0] : Fin 1 → Fin S100000x1.rank)
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1x64_S1024x64 : S1x64.Broadcasts S1024x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x64_S10000x64_1_0_0_1_n_n_wf : DotDims.WF S10000x64 S64x64 S10000x64 [1] [0] [0] [1] [] []
  scatter_S1024x64_S100000x1_S100000x64_1_0_0_1_wf : ScatterDims.WF S1024x64 S100000x1 S100000x64 [1] [0] [0] 1
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S1024x64.size a
  hwx3_0 : ∀ i : grid3.Coords, EltTy.bits .f32 = 32 ∨ (Rect.block (s := S1024x64) S1024x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1024x1.size a ≤ S1024x1.size a
  hwx3_5 : ∀ i : grid3.Coords, EltTy.bits .f32 = 32 ∨ (Rect.block (s := S1024x1) S1024x1.size (cc3_transform_5 i) (hinb3_5 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v69) S1024x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S1024x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S100000 : Shape := ⟨1, ![100000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x64x64 : Shape := ⟨3, ![1, 64, 64]⟩
abbrev S1x64 : Shape := ⟨2, ![1, 64]⟩
abbrev S1024x64 : Shape := ⟨2, ![1024, 64]⟩
abbrev S100000x1 : Shape := ⟨2, ![100000, 1]⟩
abbrev S1024x1 : Shape := ⟨2, ![1024, 1]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S100000x64, .f32⟩
  | 1 => ⟨S2x1250000, .i32⟩
  | 2 => ⟨S100000, .i32⟩
  | 3 => ⟨S3x64x64, .f32⟩
  | 4 => ⟨S3x64, .f32⟩
  | 5 => ⟨S3x64x64, .f32⟩
  | 6 => ⟨S3x64, .f32⟩
  | 7 => ⟨S64x64, .f32⟩
  | 8 => ⟨S64, .f32⟩
  | 9 => ⟨S64x1, .f32⟩
  | 10 => ⟨S1, .f32⟩
  | 11 => ⟨S1x1250000, .i32⟩
  | 12 => ⟨S1250000, .i32⟩
  | 13 => ⟨S1x1250000, .i32⟩
  | 14 => ⟨S1250000, .i32⟩
  | 15 => ⟨S_, .i32⟩
  | 16 => ⟨S1250000, .i32⟩
  | 17 => ⟨S1250000, .i1⟩
  | 18 => ⟨S_, .i32⟩
  | 19 => ⟨S1250000, .i32⟩
  | 20 => ⟨S1250000, .i32⟩
  | 21 => ⟨S1250000, .i32⟩
  | 22 => ⟨S1250000x1, .i32⟩
  | 23 => ⟨S1250000x64, .f32⟩
  | 24 => ⟨S_, .f32⟩
  | 25 => ⟨S100000x64, .f32⟩
  | 26 => ⟨S1250000x1, .i32⟩
  | 27 => ⟨S100000x64, .f32⟩
  | 28 => ⟨S100000x64, .f32⟩
  | 29 => ⟨S1x64x64, .f32⟩
  | 30 => ⟨S64x64, .f32⟩
  | 31 => ⟨S100000x64, .f32⟩
  | 32 => ⟨S1x64, .f32⟩
  | 33 => ⟨S64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S1x64x64, .f32⟩
  | 41 => ⟨S64x64, .f32⟩
  | 42 => ⟨S100000x64, .f32⟩
  | 43 => ⟨S1x64, .f32⟩
  | 44 => ⟨S64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S_, .i32⟩
  | 52 => ⟨S1250000, .i32⟩
  | 53 => ⟨S1250000, .i1⟩
  | 54 => ⟨S_, .i32⟩
  | 55 => ⟨S1250000, .i32⟩
  | 56 => ⟨S1250000, .i32⟩
  | 57 => ⟨S1250000, .i32⟩
  | 58 => ⟨S1250000x1, .i32⟩
  | 59 => ⟨S1250000x64, .f32⟩
  | 60 => ⟨S_, .f32⟩
  | 61 => ⟨S100000x64, .f32⟩
  | 62 => ⟨S1250000x1, .i32⟩
  | 63 => ⟨S100000x64, .f32⟩
  | 64 => ⟨S100000x64, .f32⟩
  | 65 => ⟨S1x64x64, .f32⟩
  | 66 => ⟨S64x64, .f32⟩
  | 67 => ⟨S100000x64, .f32⟩
  | 68 => ⟨S1x64, .f32⟩
  | 69 => ⟨S64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S1x64x64, .f32⟩
  | 77 => ⟨S64x64, .f32⟩
  | 78 => ⟨S100000x64, .f32⟩
  | 79 => ⟨S1x64, .f32⟩
  | 80 => ⟨S64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S_, .i32⟩
  | 88 => ⟨S1250000, .i32⟩
  | 89 => ⟨S1250000, .i1⟩
  | 90 => ⟨S_, .i32⟩
  | 91 => ⟨S1250000, .i32⟩
  | 92 => ⟨S1250000, .i32⟩
  | 93 => ⟨S1250000, .i32⟩
  | 94 => ⟨S1250000x1, .i32⟩
  | 95 => ⟨S1250000x64, .f32⟩
  | 96 => ⟨S_, .f32⟩
  | 97 => ⟨S100000x64, .f32⟩
  | 98 => ⟨S1250000x1, .i32⟩
  | 99 => ⟨S100000x64, .f32⟩
  | 100 => ⟨S100000x64, .f32⟩
  | 101 => ⟨S1x64x64, .f32⟩
  | 102 => ⟨S64x64, .f32⟩
  | 103 => ⟨S100000x64, .f32⟩
  | 104 => ⟨S1x64, .f32⟩
  | 105 => ⟨S64, .f32⟩
  | 106 => ⟨S1x64, .f32⟩
  | 107 => ⟨S100000x64, .f32⟩
  | 108 => ⟨S100000x64, .f32⟩
  | 109 => ⟨S_, .f32⟩
  | 110 => ⟨S100000x64, .f32⟩
  | 111 => ⟨S100000x64, .f32⟩
  | 112 => ⟨S1x64x64, .f32⟩
  | 113 => ⟨S64x64, .f32⟩
  | 114 => ⟨S100000x64, .f32⟩
  | 115 => ⟨S1x64, .f32⟩
  | 116 => ⟨S64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S_, .f32⟩
  | 124 => ⟨S1024x64, .f32⟩
  | 125 => ⟨S100000x1, .i32⟩
  | 126 => ⟨S1024x64, .f32⟩
  | 127 => ⟨S1024x64, .f32⟩
  | _ => ⟨S100000x64, .f32⟩

abbrev hbmTy0_1 (i : Nat) : BufTy := match i % 128 with
  | 0 => ⟨S1x64, .f32⟩
  | 1 => ⟨S1024x64, .f32⟩
  | 2 => ⟨S1024x64, .f32⟩
  | 3 => ⟨S_, .f32⟩
  | 4 => ⟨S1024x64, .f32⟩
  | 5 => ⟨S1024x64, .f32⟩
  | 6 => ⟨S1024x1, .f32⟩
  | 7 => ⟨S1x1, .f32⟩
  | 8 => ⟨S1024x1, .f32⟩
  | 9 => ⟨S1024x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call1_cst : Ref sig .tc := ⟨.hbm, 48, rfl⟩
abbrev main_call1_v0 : Ref sig .tc := ⟨.hbm, 49, rfl⟩
abbrev main_v32 : Ref sig .tc := ⟨.hbm, 50, rfl⟩
abbrev main_c_1 : Ref sig .tc := ⟨.hbm, 51, rfl⟩
abbrev main_v33 : Ref sig .tc := ⟨.hbm, 52, rfl⟩
abbrev main_v34 : Ref sig .tc := ⟨.hbm, 53, rfl⟩
abbrev main_c_2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_3 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call2_cst : Ref sig .tc := ⟨.hbm, 73, rfl⟩
abbrev main_call2_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call3_cst : Ref sig .tc := ⟨.hbm, 84, rfl⟩
abbrev main_call3_v0 : Ref sig .tc := ⟨.hbm, 85, rfl⟩
abbrev main_v61 : Ref sig .tc := ⟨.hbm, 86, rfl⟩
abbrev main_c_4 : Ref sig .tc := ⟨.hbm, 87, rfl⟩
abbrev main_v62 : Ref sig .tc := ⟨.hbm, 88, rfl⟩
abbrev main_v63 : Ref sig .tc := ⟨.hbm, 89, rfl⟩
abbrev main_c_5 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_6 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_call4_cst : Ref sig .tc := ⟨.hbm, 109, rfl⟩
abbrev main_call4_v0 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_call5_cst : Ref sig .tc := ⟨.hbm, 120, rfl⟩
abbrev main_call5_v0 : Ref sig .tc := ⟨.hbm, 121, rfl⟩
abbrev main_v90 : Ref sig .tc := ⟨.hbm, 122, rfl⟩
abbrev main_cst_7 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call6_cst : Ref sig .tc := ⟨.hbm, 131, rfl⟩
abbrev main_call6_v0 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S1x64_S1024x64_0_1 : S1x64.BroadcastsInDim S1024x64 (![0, 1] : Fin 2 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.KernelRun.lean ====
/-
  The device program's run with its result named.

  The program is four device regions among stretches of host lines.  Every weakly fair execution terminates
  without a fault; afterwards the result buffer holds what the last region's write-backs leave of it, and the
  eleven argument arrays are as launched.  The contents at each boundary between a stretch and a region are the
  fold W0 … W8 through the program: a stretch applies its host lines, a region replaces its arrays by what its
  pipeline leaves.
-/
import proofs.«118180_j22376779612621_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument array as launched. -/
theorem run_named : θ_run defs (onTc (τ := τ) (main (F := F))) ⟨m, fun _ => 0, ρ⟩ (fun r => ∀ c : Dev nD,
      r.2.mem ((c.tc : Thread nD τ).loc main_v72) = W8 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v72 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.Hand

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.LibDenseLayer.lean ====
/-
  A dense layer at one entry, and how the device's and the host's vector operations compute it, at the ideal
  values where a float is an extended real and every operation is exact.

  An affine map sends a row z to (sum over c of z c · w (c, q)) + b q; followed by the positive part max(·, 0) it is
  a dense layer.  On the device, a tile product [m, k]·[k, n] into a zero accumulator plus a [1, n] bias row
  repeated down the m rows, read at (p, q), is the affine map of row p; followed by the maximum with the zero
  splat it is the dense layer of row p.  On the host, the product plus a length-n bias vector placed as a row and
  repeated down the rows is the same affine map, and the maximum with the repeated scalar zero the same dense
  layer.  Any extents m, k, n and any operand formats (a change of format is the identity at the ideal values).
-/
import Idealize.ShloMosaic.Lib.Pipeline.Value
import Idealize.ShloMosaic.Lib.ValueIdx
import Idealize.ShloMosaic.PureOps.Ideal.Laws
import proofs.«118180_j22376779612621_1_alg».proof.Proof.LibPlainProduct
import proofs.«118180_j22376779612621_1_alg».proof.Proof.LibHostProduct
import proofs.«118180_j22376779612621_1_alg».proof.Proof.LibRowsProduct
import proofs.«118180_j22376779612621_1_alg».proof.Proof.LibHostBroadcast

noncomputable section

namespace Cert.DenseLayer

open Idealize.ShloMosaic Idealize.ShloMosaic.ValueIdx

/-- The value of the float zero word. -/
abbrev Z : EReal := Ideal.ofBits .f32 0x00000000#32

/-- An affine map at output coordinate q: the row z against column q of w, plus the bias. -/
def affine {k n : ℕ} (z : Fin k → EReal) (w : (⟨2, ![k, n]⟩ : Shape).Idx → EReal) (b : Fin n → EReal) (q : Fin n) : EReal :=
  (∑ c : Fin k, z c * w (ix2 c q)) + b q

/-- A dense layer at output coordinate q: the affine map followed by the positive part. -/
def dense {k n : ℕ} (z : Fin k → EReal) (w : (⟨2, ![k, n]⟩ : Shape).Idx → EReal) (b : Fin n → EReal) (q : Fin n) : EReal :=
  max (affine z w b q) Z

section Device

variable {m k n : ℕ} {φ₁ φ₂ : FTy}

/-- The tile product into a zero accumulator plus a bias row repeated down the rows, at (p, q). -/
theorem tpu_affine_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (A : FVec Ideal ⟨2, ![m, k]⟩ φ₁) (W : FVec Ideal ⟨2, ![k, n]⟩ φ₂) (b : FVec Ideal ⟨2, ![1, n]⟩ .f32)
    (p : Fin m) (q : Fin n) :
    addf (matmul (⟨[1], [0], [0], [1], [], [], w⟩ : DotDims _ _ _) none A W (constant _ .f32 0x00000000#32))
      (broadcastTo ⟨2, ![m, n]⟩ b hb) (ix2 p q)
    = affine (fun c => A (ix2 p c)) W (fun q => b (ix2 (0 : Fin 1) q)) q := by
  rw [addf_apply]
  show FloatOps.matmul _ none A W (constant _ .f32 0x00000000#32) (ix2 p q) + _ = _
  rw [Cert.PlainProduct.matmul_nn_apply, Cert.RowsProduct.broadcastTo_1n_an_apply]
  rfl

/-- The same followed by the maximum with the zero splat: a dense layer of row p. -/
theorem tpu_dense_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (A : FVec Ideal ⟨2, ![m, k]⟩ φ₁) (W : FVec Ideal ⟨2, ![k, n]⟩ φ₂) (b : FVec Ideal ⟨2, ![1, n]⟩ .f32)
    (p : Fin m) (q : Fin n) :
    maximumf (addf (matmul (⟨[1], [0], [0], [1], [], [], w⟩ : DotDims _ _ _) none A W (constant _ .f32 0x00000000#32))
      (broadcastTo ⟨2, ![m, n]⟩ b hb)) (broadcast ⟨2, ![m, n]⟩ (Scalar.ofBits .f32 0x00000000#32)) (ix2 p q)
    = dense (fun c => A (ix2 p c)) W (fun q => b (ix2 (0 : Fin 1) q)) q := by
  rw [maximumf_apply, tpu_affine_apply]
  rfl

end Device

section Host

variable {m k n : ℕ} {φ₁ φ₂ : FTy}

/-- The host's product plus a bias vector repeated down the rows, at (p, q). -/
theorem host_affine_apply (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (A : FVec Ideal ⟨2, ![m, k]⟩ φ₁) (W : FVec Ideal ⟨2, ![k, n]⟩ φ₂) (v : FVec Ideal ⟨1, ![n]⟩ .f32)
    (p : Fin m) (q : Fin n) :
    addf (Host.dotGeneral (⟨[1], [0], [0], [1], [], [], w⟩ : DotDims _ _ _) none A W)
      (broadcastInDim ⟨2, ![m, n]⟩ ![0, 1] h2 (broadcastInDim ⟨2, ![1, n]⟩ ![1] h1 v)) (ix2 p q)
    = affine (fun c => A (ix2 p c)) W (fun q => v (ix1 q)) q := by
  rw [addf_apply, Cert.HostProduct.dotGeneral_nn_apply, Cert.HostBroadcast.row_apply]
  rfl

/-- The same followed by the maximum with the repeated scalar zero: a dense layer of row p. -/
theorem host_dense_apply (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨2, ![m, n]⟩ ![])
    (A : FVec Ideal ⟨2, ![m, k]⟩ φ₁) (W : FVec Ideal ⟨2, ![k, n]⟩ φ₂) (v : FVec Ideal ⟨1, ![n]⟩ .f32)
    (p : Fin m) (q : Fin n) :
    maximumf (addf (Host.dotGeneral (⟨[1], [0], [0], [1], [], [], w⟩ : DotDims _ _ _) none A W)
      (broadcastInDim ⟨2, ![m, n]⟩ ![0, 1] h2 (broadcastInDim ⟨2, ![1, n]⟩ ![1] h1 v)))
      (broadcastInDim ⟨2, ![m, n]⟩ ![] h0 (constant (F := Ideal) ⟨0, ![]⟩ .f32 0x00000000#32)) (ix2 p q)
    = dense (fun c => A (ix2 p c)) W (fun q => v (ix1 q)) q := by
  rw [maximumf_apply, host_affine_apply, Cert.HostBroadcast.scalar_apply]
  rfl

end Host

end Cert.DenseLayer

end
-- ==== Proof.Mlp.lean ====
/-
  Two layers of a perceptron applied to every row of an array: the graph-convolution layer and the readout, as
  array-level functions over the extended reals.

  A layer's row P is the two dense layers of row P of (features + aggregate); the readout's row P is a dense layer
  of row P of the pooled features followed by an affine map onto one target.  Each output row depends only on the
  same input row, so a block of rows of the output is the same function of the matching block of rows of the inputs.
-/
import proofs.«118180_j22376779612621_1_alg».proof.Proof.LibDenseLayer

noncomputable section

namespace Cert.Gin

open Idealize.ShloMosaic Idealize.ShloMosaic.ValueIdx

export Cert.DenseLayer (Z affine dense tpu_affine_apply tpu_dense_apply host_affine_apply host_dense_apply)

/-- One graph-convolution layer on all n nodes: node P's new features are the two dense layers of the sum of
    its features and its aggregated neighbours' — each row by itself. -/
def layer {n : ℕ} (h agg : (⟨2, ![n, 64]⟩ : Shape).Idx → EReal) (w1 : (⟨2, ![64, 64]⟩ : Shape).Idx → EReal) (b1 : Fin 64 → EReal)
    (w2 : (⟨2, ![64, 64]⟩ : Shape).Idx → EReal) (b2 : Fin 64 → EReal) : (⟨2, ![n, 64]⟩ : Shape).Idx → EReal :=
  fun i => dense (fun k => dense (fun j => h (ix2 (i 0) j) + agg (ix2 (i 0) j)) w1 b1 k) w2 b2 (i 1)

/-- The readout on all n pooled rows: a dense layer, then an affine map onto one target. -/
def head {n : ℕ} (p : (⟨2, ![n, 64]⟩ : Shape).Idx → EReal) (w1 : (⟨2, ![64, 64]⟩ : Shape).Idx → EReal) (b1 : Fin 64 → EReal)
    (w2 : (⟨2, ![64, 1]⟩ : Shape).Idx → EReal) (b2 : Fin 1 → EReal) : (⟨2, ![n, 1]⟩ : Shape).Idx → EReal :=
  fun i => affine (fun k => dense (fun j => p (ix2 (i 0) j)) w1 b1 k) w2 b2 (i 1)

/-- A layer's entry (P, q) from any block holding row P of both operands as its row p. -/
theorem layer_of_rows {n bn : ℕ} (h agg : (⟨2, ![n, 64]⟩ : Shape).Idx → EReal) (w1 : (⟨2, ![64, 64]⟩ : Shape).Idx → EReal)
    (b1 : Fin 64 → EReal) (w2 : (⟨2, ![64, 64]⟩ : Shape).Idx → EReal) (b2 : Fin 64 → EReal)
    (hb ab : (⟨2, ![bn, 64]⟩ : Shape).Idx → EReal) (P : Fin n) (p : Fin bn) (q : Fin 64)
    (hh : ∀ j, hb (ix2 p j) = h (ix2 P j)) (ha : ∀ j, ab (ix2 p j) = agg (ix2 P j)) :
    dense (fun k => dense (fun j => hb (ix2 p j) + ab (ix2 p j)) w1 b1 k) w2 b2 q = layer h agg w1 b1 w2 b2 (ix2 P q) := by
  unfold layer
  simp only [hh, ha]
  rfl

end Cert.Gin

end
-- ==== Proof.KernelLayers.lean ====
/-
  What each device region leaves in its output array, as one function of the arrays it finds.

  A layer region runs over ten blocks of 10000 node rows; at block t it loads rows 10000 t … 10000 t + 9999 of the
  features and of the aggregate and the whole weights and bias rows, and stores the two dense layers of their sum.
  A row of the result depends only on the same row of the two operands, so the ten stored blocks are the ten row
  blocks of ONE array-level function, Gin.layer, of the arrays as the region finds them; the blocks tile the
  array.  The readout region has one block, the whole array.
-/
import proofs.«118180_j22376779612621_1_alg».proof.Proof.Gen.KernelIdeal.Frame
import proofs.«118180_j22376779612621_1_alg».proof.Proof.Mlp
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The stored value at (p, q): two dense layers of row p of the sum of the first two loads. -/
theorem pay0_apply (x0 x1 : Vec Ideal S10000x64 .f32) (x2 : Vec Ideal S64x64 .f32) (x3 : Vec Ideal S1x64 .f32)
    (x4 : Vec Ideal S64x64 .f32) (x5 : Vec Ideal S1x64 .f32) (p : Fin 10000) (q : Fin 64) :
    k0_pay1 x0 x1 x2 x3 x4 x5 (ix2 p q)
      = Gin.dense (fun k => Gin.dense (fun j => x0 (ix2 p j) + x1 (ix2 p j)) x2 (fun q => x3 (ix2 (0 : Fin 1) q)) k)
          x4 (fun q => x5 (ix2 (0 : Fin 1) q)) q := by
  unfold k0_pay1
  simp only [shapeCast_self]
  refine (Gin.tpu_dense_apply _ _ _ _ _ p q).trans ?_
  refine congrArg (fun z => Gin.dense z x4 (fun q => x5 (ix2 (0 : Fin 1) q)) q) (funext fun k => ?_)
  exact Gin.tpu_dense_apply _ _ _ _ _ p k

/-- The printed index maps over the ten points: the row blocks move with the point, the weights and biases stay. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A row block of the features read at (p, j): row 10000 t + p of the array. -/
theorem blkrow0_0 (c : Dev nD) (t : Fin cfg0.N) (p : Fin 10000) (j : Fin 64) (P : Fin 100000) (hP : P.val = t.val * 10000 + p.val) :
    (iblk0 V c 0 t : Vec Ideal S10000x64 .f32) (ix2 p j) = (V c main_arg0 : S100000x64.Idx → EReal) (ix2 P j) := by
  obtain ⟨e0, e1, -⟩ := idx_facts0 t
  unfold iblk0
  rw [View.read_apply]
  show (V c main_arg0 : S100000x64.Idx → EReal) _ = _
  refine congrArg _ (funext fun a => Fin.ext ?_)
  match a with
  | ⟨0, _⟩ => show win0_0.index t (0 : Fin 2) * 10000 + 1 * p.val = P.val; omega
  | ⟨1, _⟩ => show win0_0.index t (1 : Fin 2) * 64 + 1 * j.val = j.val; omega

/-- A row block of the aggregate read at (p, j): row 10000 t + p of the array. -/
theorem blkrow0_1 (c : Dev nD) (t : Fin cfg0.N) (p : Fin 10000) (j : Fin 64) (P : Fin 100000) (hP : P.val = t.val * 10000 + p.val) :
    (iblk0 V c 1 t : Vec Ideal S10000x64 .f32) (ix2 p j) = (V c main_v13 : S100000x64.Idx → EReal) (ix2 P j) := by
  obtain ⟨-, -, e0, e1, -⟩ := idx_facts0 t
  unfold iblk0
  rw [View.read_apply]
  show (V c main_v13 : S100000x64.Idx → EReal) _ = _
  refine congrArg _ (funext fun a => Fin.ext ?_)
  match a with
  | ⟨0, _⟩ => show win0_1.index t (0 : Fin 2) * 10000 + 1 * p.val = P.val; omega
  | ⟨1, _⟩ => show win0_1.index t (1 : Fin 2) * 64 + 1 * j.val = j.val; omega

/-- The weight and bias windows hold their whole arrays at every point. -/
theorem blkall0_2 (c : Dev nD) (t : Fin cfg0.N) : (iblk0 V c 2 t : Vec Ideal S64x64 .f32) = (V c main_v15 : S64x64.Idx → EReal) := by
  obtain ⟨-, -, -, -, e0, e1, -⟩ := idx_facts0 t
  funext y
  unfold iblk0
  rw [View.read_apply]
  show (V c main_v15 : S64x64.Idx → EReal) _ = _
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega
theorem blkall0_3 (c : Dev nD) (t : Fin cfg0.N) : (iblk0 V c 3 t : Vec Ideal S1x64 .f32) = (V c main_v22 : S1x64.Idx → EReal) := by
  obtain ⟨-, -, -, -, -, -, e0, e1, -⟩ := idx_facts0 t
  funext y
  unfold iblk0
  rw [View.read_apply]
  show (V c main_v22 : S1x64.Idx → EReal) _ = _
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega
theorem blkall0_4 (c : Dev nD) (t : Fin cfg0.N) : (iblk0 V c 4 t : Vec Ideal S64x64 .f32) = (V c main_v19 : S64x64.Idx → EReal) := by
  obtain ⟨-, -, -, -, -, -, -, -, e0, e1, -⟩ := idx_facts0 t
  funext y
  unfold iblk0
  rw [View.read_apply]
  show (V c main_v19 : S64x64.Idx → EReal) _ = _
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega
theorem blkall0_5 (c : Dev nD) (t : Fin cfg0.N) : (iblk0 V c 5 t : Vec Ideal S1x64 .f32) = (V c main_v23 : S1x64.Idx → EReal) := by
  obtain ⟨-, -, -, -, -, -, -, -, -, -, e0, e1, -⟩ := idx_facts0 t
  funext y
  unfold iblk0
  rw [View.read_apply]
  show (V c main_v23 : S1x64.Idx → EReal) _ = _
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- The layer of the arrays the region finds. -/
abbrev G0 (c : Dev nD) : S100000x64.Idx → EReal :=
  Gin.layer (V c main_arg0 : S100000x64.Idx → EReal) (V c main_v13 : S100000x64.Idx → EReal) (V c main_v15 : S64x64.Idx → EReal)
    (fun q => (V c main_v22 : S1x64.Idx → EReal) (ix2 (0 : Fin 1) q)) (V c main_v19 : S64x64.Idx → EReal)
    (fun q => (V c main_v23 : S1x64.Idx → EReal) (ix2 (0 : Fin 1) q))

/-- What point t writes back is block t of the layer. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S10000x64) hz, View.ld_unit_zero (S := S64x64) hz, View.ld_unit_zero (S := S1x64) hz]
  rw [blkall0_2, blkall0_3, blkall0_4, blkall0_5]
  funext y
  obtain ⟨p, q, rfl⟩ : ∃ (p : Fin 10000) (q : Fin 64), y = ix2 p q := ⟨y 0, y 1, eq_ix2 y⟩
  obtain ⟨-, -, -, -, -, -, -, -, -, -, -, -, e0, e1⟩ := idx_facts0 t
  have ht : t.val < 10 := lt_of_lt_of_eq t.isLt N_0
  have hP : t.val * 10000 + p.val < 100000 := by have := p.isLt; omega
  rw [View.read_apply]
  have hemb : ((cfg0.win 6).blk t).view.emb (ix2 p q) = (ix2 (⟨t.val * 10000 + p.val, hP⟩ : Fin 100000) q : S100000x64.Idx) := by
    funext a; apply Fin.ext
    match a with
    | ⟨0, _⟩ => show win0_6.index t (0 : Fin 2) * 10000 + 1 * p.val = t.val * 10000 + p.val; omega
    | ⟨1, _⟩ => show win0_6.index t (1 : Fin 2) * 64 + 1 * q.val = q.val; omega
  rw [hemb]
  refine (pay0_apply _ _ _ _ _ _ p q).trans ?_
  exact Gin.layer_of_rows _ _ _ _ _ _ _ _ ⟨t.val * 10000 + p.val, hP⟩ p q
    (fun j => blkrow0_0 V c t p j _ rfl) (fun j => blkrow0_1 V c t p j _ rfl)

/-- The ten row blocks tile the array, so it ends holding the layer. -/
theorem final0 (c : Dev nD) : (dat0 V c).arrAt 6 cfg0.N = G0 V c :=
  (dat0 V c).arrAt_eq_of_cover 6 (G0 V c) (fun t _ => flushed0_eq V c t) fun i => by
    have h0 : (i 0).val < 100000 := (i 0).isLt
    have h1 : (i 1).val < 64 := (i 1).isLt
    have hN : (i 0).val / 10000 < cfg0.N := lt_of_lt_of_eq (b := 10) (by omega) N_0.symm
    obtain ⟨t, ht⟩ : ∃ t : Fin cfg0.N, t.val = (i 0).val / 10000 := ⟨⟨_, hN⟩, rfl⟩
    refine ⟨t, flush0_6 t, ?_⟩
    obtain ⟨-, -, -, -, -, -, -, -, -, -, -, -, e0, e1⟩ := idx_facts0 t
    show i ∈ ((View.whole main_v24).slice (win0_6.rect t)).set
    rw [View.set_slice_whole, Rect.mem_set_unit]
    intro a
    match a with
    | ⟨0, _⟩ =>
      show win0_6.index t (0 : Fin 2) * 10000 ≤ (i 0).val ∧ (i 0).val < win0_6.index t (0 : Fin 2) * 10000 + 10000
      omega
    | ⟨1, _⟩ =>
      show win0_6.index t (1 : Fin 2) * 64 ≤ (i 1).val ∧ (i 1).val < win0_6.index t (1 : Fin 2) * 64 + 64
      omega

/-! ## Region 1 -/

/-- The stored value at (p, q): two dense layers of row p of the sum of the first two loads. -/
theorem pay1_apply (x0 x1 : Vec Ideal S10000x64 .f32) (x2 : Vec Ideal S64x64 .f32) (x3 : Vec Ideal S1x64 .f32)
    (x4 : Vec Ideal S64x64 .f32) (x5 : Vec Ideal S1x64 .f32) (p : Fin 10000) (q : Fin 64) :
    k1_pay1 x0 x1 x2 x3 x4 x5 (ix2 p q)
      = Gin.dense (fun k => Gin.dense (fun j => x0 (ix2 p j) + x1 (ix2 p j)) x2 (fun q => x3 (ix2 (0 : Fin 1) q)) k)
          x4 (fun q => x5 (ix2 (0 : Fin 1) q)) q := by
  unfold k1_pay1
  simp only [shapeCast_self]
  refine (Gin.tpu_dense_apply _ _ _ _ _ p q).trans ?_
  refine congrArg (fun z => Gin.dense z x4 (fun q => x5 (ix2 (0 : Fin 1) q)) q) (funext fun k => ?_)
  exact Gin.tpu_dense_apply _ _ _ _ _ p k

/-- The printed index maps over the ten points: the row blocks move with the point, the weights and biases stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A row block of the features read at (p, j): row 10000 t + p of the array. -/
theorem blkrow1_0 (c : Dev nD) (t : Fin cfg1.N) (p : Fin 10000) (j : Fin 64) (P : Fin 100000) (hP : P.val = t.val * 10000 + p.val) :
    (iblk1 V c 0 t : Vec Ideal S10000x64 .f32) (ix2 p j) = (V c main_v24 : S100000x64.Idx → EReal) (ix2 P j) := by
  obtain ⟨e0, e1, -⟩ := idx_facts1 t
  unfold iblk1
  rw [View.read_apply]
  show (V c main_v24 : S100000x64.Idx → EReal) _ = _
  refine congrArg _ (funext fun a => Fin.ext ?_)
  match a with
  | ⟨0, _⟩ => show win1_0.index t (0 : Fin 2) * 10000 + 1 * p.val = P.val; omega
  | ⟨1, _⟩ => show win1_0.index t (1 : Fin 2) * 64 + 1 * j.val = j.val; omega

/-- A row block of the aggregate read at (p, j): row 10000 t + p of the array. -/
theorem blkrow1_1 (c : Dev nD) (t : Fin cfg1.N) (p : Fin 10000) (j : Fin 64) (P : Fin 100000) (hP : P.val = t.val * 10000 + p.val) :
    (iblk1 V c 1 t : Vec Ideal S10000x64 .f32) (ix2 p j) = (V c main_v34 : S100000x64.Idx → EReal) (ix2 P j) := by
  obtain ⟨-, -, e0, e1, -⟩ := idx_facts1 t
  unfold iblk1
  rw [View.read_apply]
  show (V c main_v34 : S100000x64.Idx → EReal) _ = _
  refine congrArg _ (funext fun a => Fin.ext ?_)
  match a with
  | ⟨0, _⟩ => show win1_1.index t (0 : Fin 2) * 10000 + 1 * p.val = P.val; omega
  | ⟨1, _⟩ => show win1_1.index t (1 : Fin 2) * 64 + 1 * j.val = j.val; omega

/-- The weight and bias windows hold their whole arrays at every point. -/
theorem blkall1_2 (c : Dev nD) (t : Fin cfg1.N) : (iblk1 V c 2 t : Vec Ideal S64x64 .f32) = (V c main_v36 : S64x64.Idx → EReal) := by
  obtain ⟨-, -, -, -, e0, e1, -⟩ := idx_facts1 t
  funext y
  unfold iblk1
  rw [View.read_apply]
  show (V c main_v36 : S64x64.Idx → EReal) _ = _
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega
theorem blkall1_3 (c : Dev nD) (t : Fin cfg1.N) : (iblk1 V c 3 t : Vec Ideal S1x64 .f32) = (V c main_v43 : S1x64.Idx → EReal) := by
  obtain ⟨-, -, -, -, -, -, e0, e1, -⟩ := idx_facts1 t
  funext y
  unfold iblk1
  rw [View.read_apply]
  show (V c main_v43 : S1x64.Idx → EReal) _ = _
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega
theorem blkall1_4 (c : Dev nD) (t : Fin cfg1.N) : (iblk1 V c 4 t : Vec Ideal S64x64 .f32) = (V c main_v40 : S64x64.Idx → EReal) := by
  obtain ⟨-, -, -, -, -, -, -, -, e0, e1, -⟩ := idx_facts1 t
  funext y
  unfold iblk1
  rw [View.read_apply]
  show (V c main_v40 : S64x64.Idx → EReal) _ = _
  refine congrArg _ (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega
theorem blkall1_5 (c : Dev nD) (t : Fin cfg1.N) : (iblk1 V c 5 t : Vec Ideal S1x64 .f32) = (V c main_v44 : S1x64.Idx → EReal) := by
  obtain ⟨-, -, -, -, -, -, -, -, -, -, e0, e1, -⟩ := idx_facts1 t
  funext y
  unfold iblk1
  rw [View.read_apply]
  show (V c main_v44 : S1x64.Idx → EReal) _ = _
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- The layer of the arrays the region finds. -/
abbrev G1 (c : Dev nD) : S100000x64.Idx → EReal :=
  Gin.layer (V c main_v24 : S100000x64.Idx → EReal) (V c main_v34 : S100000x64.Idx → EReal) (V c main_v36 : S64x64.Idx → EReal)
    (fun q => (V c main_v43 : S1x64.Idx → EReal) (ix2 (0 : Fin 1) q)) (V c main_v40 : S64x64.Idx → EReal)
    (fun q => (V c main_v44 : S1x64.Idx → EReal) (ix2 (0 : Fin 1) q))

/-- What point t writes back is block t of the layer. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S10000x64) hz, View.ld_unit_zero (S := S64x64) hz, View.ld_unit_zero (S := S1x64) hz]
  rw [blkall1_2, blkall1_3, blkall1_4, blkall1_5]
  funext y
  obtain ⟨p, q, rfl⟩ : ∃ (p : Fin 10000) (q : Fin 64), y = ix2 p q := ⟨y 0, y 1, eq_ix2 y⟩
  obtain ⟨-, -, -, -, -, -, -, -, -, -, -, -, e0, e1⟩ := idx_facts1 t
  have ht : t.val < 10 := lt_of_lt_of_eq t.isLt N_1
  have hP : t.val * 10000 + p.val < 100000 := by have := p.isLt; omega
  rw [View.read_apply]
  have hemb : ((cfg1.win 6).blk t).view.emb (ix2 p q) = (ix2 (⟨t.val * 10000 + p.val, hP⟩ : Fin 100000) q : S100000x64.Idx) := by
    funext a; apply Fin.ext
    match a with
    | ⟨0, _⟩ => show win1_6.index t (0 : Fin 2) * 10000 + 1 * p.val = t.val * 10000 + p.val; omega
    | ⟨1, _⟩ => show win1_6.index t (1 : Fin 2) * 64 + 1 * q.val = q.val; omega
  rw [hemb]
  refine (pay1_apply _ _ _ _ _ _ p q).trans ?_
  exact Gin.layer_of_rows _ _ _ _ _ _ _ _ ⟨t.val * 10000 + p.val, hP⟩ p q
    (fun j => blkrow1_0 V c t p j _ rfl) (fun j => blkrow1_1 V c t p j _ rfl)

/-- The ten row blocks tile the array, so it ends holding the layer. -/
theorem final1 (c : Dev nD) : (dat1 V c).arrAt 6 cfg1.N = G1 V c :=
  (dat1 V c).arrAt_eq_of_cover 6 (G1 V c) (fun t _ => flushed1_eq V c t) fun i => by
    have h0 : (i 0).val < 100000 := (i 0).isLt
    have h1 : (i 1).val < 64 := (i 1).isLt
    have hN : (i 0).val / 10000 < cfg1.N := lt_of_lt_of_eq (b := 10) (by omega) N_1.symm
    obtain ⟨t, ht⟩ : ∃ t : Fin cfg1.N, t.val = (i 0).val / 10000 := ⟨⟨_, hN⟩, rfl⟩
    refine ⟨t, flush1_6 t, ?_⟩
    obtain ⟨-, -, -, -, -, -, -, -, -, -, -, -, e0, e1⟩ := idx_facts1 t
    show i ∈ ((View.whole main_v45).slice (win1_6.rect t)).set
    rw [View.set_slice_whole, Rect.mem_set_unit]
    intro a
    match a with
    | ⟨0, _⟩ =>
      show win1_6.index t (0 : Fin 2) * 10000 ≤ (i 0).val ∧ (i 0).val < win1_6.index t (0 : Fin 2) * 10000 + 10000
      omega
    | ⟨1, _⟩ =>
      show win1_6.index t (1 : Fin 2) * 64 ≤ (i 1).val ∧ (i 1).val < win1_6.index t (1 : Fin 2) * 64 + 64
      omega

/-! ## Region 2 -/

/-- The stored value at (p, q): two dense layers of row p of the sum of the first two loads. -/
theorem pay2_apply (x0 x1 : Vec Ideal S10000x64 .f32) (x2 : Vec Ideal S64x64 .f32) (x3 : Vec Ideal S1x64 .f32)
    (x4 : Vec Ideal S64x64 .f32) (x5 : Vec Ideal S1x64 .f32) (p : Fin 10000) (q : Fin 64) :
    k2_pay1 x0 x1 x2 x3 x4 x5 (ix2 p q)
      = Gin.dense (fun k => Gin.dense (fun j => x0 (ix2 p j) + x1 (ix2 p j)) x2 (fun q => x3 (ix2 (0 : Fin 1) q)) k)
          x4 (fun q => x5 (ix2 (0 : Fin 1) q)) q := by
  unfold k2_pay1
  simp only [shapeCast_self]
  refine (Gin.tpu_dense_apply _ _ _ _ _ p q).trans ?_
  refine congrArg (fun z => Gin.dense z x4 (fun q => x5 (ix2 (0 : Fin 1) q)) q) (funext fun k => ?_)
  exact Gin.tpu_dense_apply _ _ _ _ _ p k

/-- The printed index maps over the ten points: the row blocks move with the point, the weights and biases stay. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- A row block of the features read at (p, j): row 10000 t + p of the array. -/
theorem blkrow2_0 (c : Dev nD) (t : Fin cfg2.N) (p : Fin 10000) (j : Fin 64) (P : Fin 100000) (hP : P.val = t.val * 10000 + p.val) :
    (iblk2 V c 0 t : Vec Ideal S10000x64 .f32) (ix2 p j) = (V c main_v45 : S100000x64.Idx → EReal) (ix2 P j) := by
  obtain ⟨e0, e1, -⟩ := idx_facts2 t
  unfold iblk2
  rw [View.read_apply]
  show (V c main_v45 : S100000x64.Idx → EReal) _ = _
  refine congrArg _ (funext fun a => Fin.ext ?_)
  match a with
  | ⟨0, _⟩ => show win2_0.index t (0 : Fin 2) * 10000 + 1 * p.val = P.val; omega
  | ⟨1, _⟩ => show win2_0.index t (1 : Fin 2) * 64 + 1 * j.val = j.val; omega

/-- A row block of the aggregate read at (p, j): row 10000 t + p of the array. -/
theorem blkrow2_1 (c : Dev nD) (t : Fin cfg2.N) (p : Fin 10000) (j : Fin 64) (P : Fin 100000) (hP : P.val = t.val * 10000 + p.val) :
    (iblk2 V c 1 t : Vec Ideal S10000x64 .f32) (ix2 p j) = (V c main_v55 : S100000x64.Idx → EReal) (ix2 P j) := by
  obtain ⟨-, -, e0, e1, -⟩ := idx_facts2 t
  unfold iblk2
  rw [View.read_apply]
  show (V c main_v55 : S100000x64.Idx → EReal) _ = _
  refine congrArg _ (funext fun a => Fin.ext ?_)
  match a with
  | ⟨0, _⟩ => show win2_1.index t (0 : Fin 2) * 10000 + 1 * p.val = P.val; omega
  | ⟨1, _⟩ => show win2_1.index t (1 : Fin 2) * 64 + 1 * j.val = j.val; omega

/-- The weight and bias windows hold their whole arrays at every point. -/
theorem blkall2_2 (c : Dev nD) (t : Fin cfg2.N) : (iblk2 V c 2 t : Vec Ideal S64x64 .f32) = (V c main_v57 : S64x64.Idx → EReal) := by
  obtain ⟨-, -, -, -, e0, e1, -⟩ := idx_facts2 t
  funext y
  unfold iblk2
  rw [View.read_apply]
  show (V c main_v57 : S64x64.Idx → EReal) _ = _
  refine congrArg _ (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega
theorem blkall2_3 (c : Dev nD) (t : Fin cfg2.N) : (iblk2 V c 3 t : Vec Ideal S1x64 .f32) = (V c main_v64 : S1x64.Idx → EReal) := by
  obtain ⟨-, -, -, -, -, -, e0, e1, -⟩ := idx_facts2 t
  funext y
  unfold iblk2
  rw [View.read_apply]
  show (V c main_v64 : S1x64.Idx → EReal) _ = _
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega
theorem blkall2_4 (c : Dev nD) (t : Fin cfg2.N) : (iblk2 V c 4 t : Vec Ideal S64x64 .f32) = (V c main_v61 : S64x64.Idx → EReal) := by
  obtain ⟨-, -, -, -, -, -, -, -, e0, e1, -⟩ := idx_facts2 t
  funext y
  unfold iblk2
  rw [View.read_apply]
  show (V c main_v61 : S64x64.Idx → EReal) _ = _
  refine congrArg _ (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega
theorem blkall2_5 (c : Dev nD) (t : Fin cfg2.N) : (iblk2 V c 5 t : Vec Ideal S1x64 .f32) = (V c main_v65 : S1x64.Idx → EReal) := by
  obtain ⟨-, -, -, -, -, -, -, -, -, -, e0, e1, -⟩ := idx_facts2 t
  funext y
  unfold iblk2
  rw [View.read_apply]
  show (V c main_v65 : S1x64.Idx → EReal) _ = _
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- The layer of the arrays the region finds. -/
abbrev G2 (c : Dev nD) : S100000x64.Idx → EReal :=
  Gin.layer (V c main_v45 : S100000x64.Idx → EReal) (V c main_v55 : S100000x64.Idx → EReal) (V c main_v57 : S64x64.Idx → EReal)
    (fun q => (V c main_v64 : S1x64.Idx → EReal) (ix2 (0 : Fin 1) q)) (V c main_v61 : S64x64.Idx → EReal)
    (fun q => (V c main_v65 : S1x64.Idx → EReal) (ix2 (0 : Fin 1) q))

/-- What point t writes back is block t of the layer. -/
theorem flushed2_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero hz]
  simp only [View.ld_unit_zero (S := S10000x64) hz, View.ld_unit_zero (S := S64x64) hz, View.ld_unit_zero (S := S1x64) hz]
  rw [blkall2_2, blkall2_3, blkall2_4, blkall2_5]
  funext y
  obtain ⟨p, q, rfl⟩ : ∃ (p : Fin 10000) (q : Fin 64), y = ix2 p q := ⟨y 0, y 1, eq_ix2 y⟩
  obtain ⟨-, -, -, -, -, -, -, -, -, -, -, -, e0, e1⟩ := idx_facts2 t
  have ht : t.val < 10 := lt_of_lt_of_eq t.isLt N_2
  have hP : t.val * 10000 + p.val < 100000 := by have := p.isLt; omega
  rw [View.read_apply]
  have hemb : ((cfg2.win 6).blk t).view.emb (ix2 p q) = (ix2 (⟨t.val * 10000 + p.val, hP⟩ : Fin 100000) q : S100000x64.Idx) := by
    funext a; apply Fin.ext
    match a with
    | ⟨0, _⟩ => show win2_6.index t (0 : Fin 2) * 10000 + 1 * p.val = t.val * 10000 + p.val; omega
    | ⟨1, _⟩ => show win2_6.index t (1 : Fin 2) * 64 + 1 * q.val = q.val; omega
  rw [hemb]
  refine (pay2_apply _ _ _ _ _ _ p q).trans ?_
  exact Gin.layer_of_rows _ _ _ _ _ _ _ _ ⟨t.val * 10000 + p.val, hP⟩ p q
    (fun j => blkrow2_0 V c t p j _ rfl) (fun j => blkrow2_1 V c t p j _ rfl)

/-- The ten row blocks tile the array, so it ends holding the layer. -/
theorem final2 (c : Dev nD) : (dat2 V c).arrAt 6 cfg2.N = G2 V c :=
  (dat2 V c).arrAt_eq_of_cover 6 (G2 V c) (fun t _ => flushed2_eq V c t) fun i => by
    have h0 : (i 0).val < 100000 := (i 0).isLt
    have h1 : (i 1).val < 64 := (i 1).isLt
    have hN : (i 0).val / 10000 < cfg2.N := lt_of_lt_of_eq (b := 10) (by omega) N_2.symm
    obtain ⟨t, ht⟩ : ∃ t : Fin cfg2.N, t.val = (i 0).val / 10000 := ⟨⟨_, hN⟩, rfl⟩
    refine ⟨t, flush2_6 t, ?_⟩
    obtain ⟨-, -, -, -, -, -, -, -, -, -, -, -, e0, e1⟩ := idx_facts2 t
    show i ∈ ((View.whole main_v66).slice (win2_6.rect t)).set
    rw [View.set_slice_whole, Rect.mem_set_unit]
    intro a
    match a with
    | ⟨0, _⟩ =>
      show win2_6.index t (0 : Fin 2) * 10000 ≤ (i 0).val ∧ (i 0).val < win2_6.index t (0 : Fin 2) * 10000 + 10000
      omega
    | ⟨1, _⟩ =>
      show win2_6.index t (1 : Fin 2) * 64 ≤ (i 1).val ∧ (i 1).val < win2_6.index t (1 : Fin 2) * 64 + 64
      omega

/-! ## Region 3: the readout -/

/-- The stored value at (p, 0): a dense layer of row p, then an affine map onto the one target. -/
theorem pay3_apply (x0 : Vec Ideal S1024x64 .f32) (x1 : Vec Ideal S64x64 .f32) (x2 : Vec Ideal S1x64 .f32)
    (x3 : Vec Ideal S64x1 .f32) (x4 : Vec Ideal S1x1 .f32) (p : Fin 1024) (q : Fin 1) :
    k3_pay1 x0 x1 x2 x3 x4 (ix2 p q)
      = Gin.affine (fun k => Gin.dense (fun j => x0 (ix2 p j)) x1 (fun q => x2 (ix2 (0 : Fin 1) q)) k)
          x3 (fun q => x4 (ix2 (0 : Fin 1) q)) q := by
  unfold k3_pay1
  simp only [shapeCast_self]
  refine (Gin.tpu_affine_apply _ _ _ _ _ p q).trans ?_
  refine congrArg (fun z => Gin.affine z x3 (fun q => x4 (ix2 (0 : Fin 1) q)) q) (funext fun k => ?_)
  exact Gin.tpu_dense_apply _ _ _ _ _ p k

/-- The printed index maps at the one point: every window holds its whole array. -/
theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem blkall3_0 (c : Dev nD) (t : Fin cfg3.N) : (iblk3 V c 0 t : Vec Ideal S1024x64 .f32) = (V c main_v69 : S1024x64.Idx → EReal) := by
  obtain ⟨e0, e1, -⟩ := idx_facts3 t
  funext y
  unfold iblk3
  rw [View.read_apply]
  show (V c main_v69 : S1024x64.Idx → EReal) _ = _
  refine congrArg _ (funext fun a => Fin.ext ?_)
  match a with
  | ⟨0, _⟩ => show win3_0.index t (0 : Fin 2) * 1024 + 1 * (y 0).val = (y 0).val; omega
  | ⟨1, _⟩ => show win3_0.index t (1 : Fin 2) * 64 + 1 * (y 1).val = (y 1).val; omega
theorem blkall3_1 (c : Dev nD) (t : Fin cfg3.N) : (iblk3 V c 1 t : Vec Ideal S64x64 .f32) = (V c main_arg7 : S64x64.Idx → EReal) := by
  obtain ⟨-, -, e0, e1, -⟩ := idx_facts3 t
  funext y
  unfold iblk3
  rw [View.read_apply]
  show (V c main_arg7 : S64x64.Idx → EReal) _ = _
  refine congrArg _ (funext fun a => Fin.ext ?_)
  match a with
  | ⟨0, _⟩ => show win3_1.index t (0 : Fin 2) * 64 + 1 * (y 0).val = (y 0).val; omega
  | ⟨1, _⟩ => show win3_1.index t (1 : Fin 2) * 64 + 1 * (y 1).val = (y 1).val; omega
theorem blkall3_2 (c : Dev nD) (t : Fin cfg3.N) : (iblk3 V c 2 t : Vec Ideal S1x64 .f32) = (V c main_v70 : S1x64.Idx → EReal) := by
  obtain ⟨-, -, -, -, e0, e1, -⟩ := idx_facts3 t
  funext y
  unfold iblk3
  rw [View.read_apply]
  show (V c main_v70 : S1x64.Idx → EReal) _ = _
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 64 + 1 * (y 1).val = (y 1).val; omega
theorem blkall3_3 (c : Dev nD) (t : Fin cfg3.N) : (iblk3 V c 3 t : Vec Ideal S64x1 .f32) = (V c main_arg9 : S64x1.Idx → EReal) := by
  obtain ⟨-, -, -, -, -, -, e0, e1, -⟩ := idx_facts3 t
  funext y
  unfold iblk3
  rw [View.read_apply]
  show (V c main_arg9 : S64x1.Idx → EReal) _ = _
  refine congrArg _ (funext fun a => Fin.ext ?_)
  match a with
  | ⟨0, _⟩ => show win3_3.index t (0 : Fin 2) * 64 + 1 * (y 0).val = (y 0).val; omega
  | ⟨1, _⟩ => show win3_3.index t (1 : Fin 2) * 1 + 1 * (y 1).val = (y 1).val; omega
theorem blkall3_4 (c : Dev nD) (t : Fin cfg3.N) : (iblk3 V c 4 t : Vec Ideal S1x1 .f32) = (V c main_v71 : S1x1.Idx → EReal) := by
  obtain ⟨-, -, -, -, -, -, -, -, e0, e1, -⟩ := idx_facts3 t
  funext y
  unfold iblk3
  rw [View.read_apply]
  show (V c main_v71 : S1x1.Idx → EReal) _ = _
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 1 + 1 * (y 1).val = (y 1).val; omega

/-- The readout of the arrays the region finds. -/
abbrev G3 (c : Dev nD) : S1024x1.Idx → EReal :=
  Gin.head (V c main_v69 : S1024x64.Idx → EReal) (V c main_arg7 : S64x64.Idx → EReal)
    (fun q => (V c main_v70 : S1x64.Idx → EReal) (ix2 (0 : Fin 1) q)) (V c main_arg9 : S64x1.Idx → EReal)
    (fun q => (V c main_v71 : S1x1.Idx → EReal) (ix2 (0 : Fin 1) q))

/-- What the one point writes back is the whole readout. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz]
  simp only [View.ld_unit_zero (S := S1024x64) hz, View.ld_unit_zero (S := S64x64) hz, View.ld_unit_zero (S := S1x64) hz,
    View.ld_unit_zero (S := S64x1) hz, View.ld_unit_zero (S := S1x1) hz]
  rw [blkall3_0, blkall3_1, blkall3_2, blkall3_3, blkall3_4]
  funext y
  obtain ⟨p, q, rfl⟩ : ∃ (p : Fin 1024) (q : Fin 1), y = ix2 p q := ⟨y 0, y 1, eq_ix2 y⟩
  obtain ⟨-, -, -, -, -, -, -, -, -, -, e0, e1⟩ := idx_facts3 t
  rw [View.read_apply]
  have hemb : ((cfg3.win 5).blk t).view.emb (ix2 p q) = (ix2 p q : S1024x1.Idx) := by
    funext a; apply Fin.ext
    match a with
    | ⟨0, _⟩ => show win3_5.index t (0 : Fin 2) * 1024 + 1 * p.val = p.val; omega
    | ⟨1, _⟩ => show win3_5.index t (1 : Fin 2) * 1 + 1 * q.val = q.val; omega
  rw [hemb]
  exact pay3_apply _ _ _ _ _ p q

/-- The one block is the array, so it ends holding the readout. -/
theorem final3 (c : Dev nD) : (dat3 V c).arrAt 5 cfg3.N = G3 V c :=
  (dat3 V c).arrAt_eq_of_cover 5 (G3 V c) (fun t _ => flushed3_eq V c t) fun i => by
    have h0 : (i 0).val < 1024 := (i 0).isLt
    have h1 : (i 1).val < 1 := (i 1).isLt
    have hN : 0 < cfg3.N := lt_of_lt_of_eq (b := 1) (by omega) N_3.symm
    obtain ⟨t, ht⟩ : ∃ t : Fin cfg3.N, t.val = 0 := ⟨⟨0, hN⟩, rfl⟩
    refine ⟨t, flush3_5 t, ?_⟩
    obtain ⟨-, -, -, -, -, -, -, -, -, -, e0, e1⟩ := idx_facts3 t
    show i ∈ ((View.whole main_v72).slice (win3_5.rect t)).set
    rw [View.set_slice_whole, Rect.mem_set_unit]
    intro a
    match a with
    | ⟨0, _⟩ =>
      show win3_5.index t (0 : Fin 2) * 1024 ≤ (i 0).val ∧ (i 0).val < win3_5.index t (0 : Fin 2) * 1024 + 1024
      omega
    | ⟨1, _⟩ =>
      show win3_5.index t (1 : Fin 2) * 1 ≤ (i 1).val ∧ (i 1).val < win3_5.index t (1 : Fin 2) * 1 + 1
      omega

end Cert.KernelIdeal.Hand

end
-- ==== Proof.Spec.lean ====
/-
  The whole network as one function of its eleven argument arrays.

  Three graph-convolution layers, a sum pooling and a readout.  A layer takes the node features h, gathers the
  features of every edge's source node and adds them into the edge's destination node (the aggregate), and applies
  two dense layers to h + aggregate, row by row.  The pooling adds every node's features into its graph's row; the
  readout is a dense layer followed by an affine map onto one target.  Which rows the gather reads and the
  scatter-adds write depends on the integer inputs; these operations are carried as they are printed and never
  opened: both programs apply the same ones to the same operands.
-/
import proofs.«118180_j22376779612621_1_alg».proof.Proof.Gen.KernelIdeal
import proofs.«118180_j22376779612621_1_alg».proof.Proof.Mlp

noncomputable section

namespace Cert.Gin

open Cert.KernelIdeal Cert.KernelIdeal.Facts₀ Idealize.ShloMosaic Idealize.ShloMosaic.ValueIdx

/-- The edges' source nodes: row 0 of the edge array. -/
def srcV (e : IVec S2x1250000 32) : IVec S1250000 32 :=
  shapeCast S1250000 (extractStridedSlice S1x1250000 ![0, 0] e slices_S2x1250000_S1x1250000_0_0) shapeCasts_S1x1250000_S1250000

/-- The edges' destination nodes: row 1 of the edge array. -/
def dstV (e : IVec S2x1250000 32) : IVec S1250000 32 :=
  shapeCast S1250000 (extractStridedSlice S1x1250000 ![1, 0] e slices_S2x1250000_S1x1250000_1_0) shapeCasts_S1x1250000_S1250000

/-- The aggregate: the rows of h at the edges' sources (a negative number counted from the end), added into
    a zero array at the edges' destinations. -/
def agg (h : FVec Ideal S100000x64 .f32) (s d : IVec S1250000 32) : FVec Ideal S100000x64 .f32 :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 d)
    (Host.gather gather_S100000x64_S1250000x1_S1250000x64_1_0_n_n_0_1_164 h
      (broadcastInDim S1250000x1 ![0] bcast_S1250000_S1250000x1_0
        (select (cmpi .slt s (broadcastInDim S1250000 ![] bcast_S_S1250000 (constantI S_ 32 0#32)))
          (addi s (broadcastInDim S1250000 ![] bcast_S_S1250000 (constantI S_ 32 100000#32))) s)))

/-- One layer's weight matrix out of the stacked weights. -/
def wmat (o : Fin 3 → ℕ) (hs : S3x64x64.Slices o S1x64x64) (W : FVec Ideal S3x64x64 .f32) : FVec Ideal S64x64 .f32 :=
  shapeCast S64x64 (extractStridedSlice S1x64x64 o W hs) shapeCasts_S1x64x64_S64x64

/-- One layer's bias vector out of the stacked biases. -/
def bvec (o : Fin 2 → ℕ) (hs : S3x64.Slices o S1x64) (b : FVec Ideal S3x64 .f32) : FVec Ideal S64 .f32 :=
  shapeCast S64 (extractStridedSlice S1x64 o b hs) shapeCasts_S1x64_S64

/-- The pooling: every node's row added into its graph's row of a zero array. -/
def pool (h : FVec Ideal S100000x64 .f32) (batch : IVec S100000 32) : FVec Ideal S1024x64 .f32 :=
  Host.scatterAdd scatter_S1024x64_S100000x1_S100000x64_1_0_0_1
    (broadcastInDim S1024x64 ![] bcast_S_S1024x64 (constant S_ .f32 0x00000000#32))
    (broadcastInDim S100000x1 ![0] bcast_S100000_S100000x1_0 batch) h

/-- One graph-convolution layer. -/
def conv (h : FVec Ideal S100000x64 .f32) (s d : IVec S1250000 32) (w1 : FVec Ideal S64x64 .f32) (b1 : FVec Ideal S64 .f32)
    (w2 : FVec Ideal S64x64 .f32) (b2 : FVec Ideal S64 .f32) : FVec Ideal S100000x64 .f32 :=
  layer (n := 100000) h (agg h s d) w1 (fun q => b1 (ix1 q)) w2 (fun q => b2 (ix1 q))

/-- The network. -/
def gin (x : FVec Ideal S100000x64 .f32) (e : IVec S2x1250000 32) (batch : IVec S100000 32)
    (W1 : FVec Ideal S3x64x64 .f32) (b1 : FVec Ideal S3x64 .f32) (W2 : FVec Ideal S3x64x64 .f32) (b2 : FVec Ideal S3x64 .f32)
    (Wr1 : FVec Ideal S64x64 .f32) (br1 : FVec Ideal S64 .f32) (Wr2 : FVec Ideal S64x1 .f32) (br2 : FVec Ideal S1 .f32) :
    FVec Ideal S1024x1 .f32 :=
  head (n := 1024)
    (pool
      (conv
        (conv
          (conv x (srcV e) (dstV e)
            (wmat ![0, 0, 0] slices_S3x64x64_S1x64x64_0_0_0 W1) (bvec ![0, 0] slices_S3x64_S1x64_0_0 b1)
            (wmat ![0, 0, 0] slices_S3x64x64_S1x64x64_0_0_0 W2) (bvec ![0, 0] slices_S3x64_S1x64_0_0 b2))
          (srcV e) (dstV e)
          (wmat ![1, 0, 0] slices_S3x64x64_S1x64x64_1_0_0 W1) (bvec ![1, 0] slices_S3x64_S1x64_1_0 b1)
          (wmat ![1, 0, 0] slices_S3x64x64_S1x64x64_1_0_0 W2) (bvec ![1, 0] slices_S3x64_S1x64_1_0 b2))
        (srcV e) (dstV e)
        (wmat ![2, 0, 0] slices_S3x64x64_S1x64x64_2_0_0 W1) (bvec ![2, 0] slices_S3x64_S1x64_2_0 b1)
        (wmat ![2, 0, 0] slices_S3x64x64_S1x64x64_2_0_0 W2) (bvec ![2, 0] slices_S3x64_S1x64_2_0 b2))
      batch)
    Wr1 (fun q => br1 (ix1 q)) Wr2 (fun q => br2 (ix1 q))

end Cert.Gin

end
-- ==== Proof.LibHostKept.lean ====
/-
  A buffer that no operation of a stretch of host lines writes keeps its contents.

  For a LITERAL list `ops` of host operations (the builders `nullary`, `unary`, `binary`, `ternary`, `quaternary`,
  `reshape`, and the outlined functions' typed forms of them) and a reference `b` that none of them writes,
  `after ops v b = v b` for any contents `v`.  The tactic `host_kept ops` closes such a goal: it walks the list once,
  reads each operation's written buffer, and decides the reference different from it.  Useful wherever a value is
  carried across a stretch that neither reads nor writes it — a program of several device regions among host lines,
  or a long host program read stretch by stretch.
-/
import Idealize.ShloMosaic.Lib.StableHlo.Run

namespace Cert.Kept

/-- Closes `after ops v b = v b` for a literal list `ops` (given by name) none of whose operations writes `b`. -/
macro "host_kept" l:ident : tactic => `(tactic| (
  refine Idealize.ShloMosaic.StableHlo.after_of_forall_not_mem _ _ (List.forall_iff_forall_mem.mp ?_)
  simp only [$l:ident, List.Forall, Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes, Finset.mem_singleton]
  repeat' apply And.intro
  all_goals exact Idealize.ShloMosaic.StableHlo.devRef_ne_of_ne (by decide)))

end Cert.Kept
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.KernelChain.lean ====
/-
  What the device program's result buffer holds after the run, as the network of the argument arrays.

  The contents at the boundaries between host stretches and regions are followed through the program.  A host
  stretch writes its own results — the edges' source and destination columns, an aggregate, one layer's weights
  and bias rows, the pooled rows — as the printed host operations of what it finds, and keeps every buffer it does
  not write; a region replaces its output array by the layer (or the readout) of the arrays it finds and keeps
  every buffer that is not one of its arrays.  A bias vector re-laid as a one-row matrix read at (0, q) is the
  vector at q.  So the three layer outputs are the network's three layers of the arguments, and the last region
  leaves the network's result.
-/
import proofs.«118180_j22376779612621_1_alg».proof.Proof.Gen.KernelIdeal.Frame
import proofs.«118180_j22376779612621_1_alg».proof.Proof.KernelLayers
import proofs.«118180_j22376779612621_1_alg».proof.Proof.Spec
import proofs.«118180_j22376779612621_1_alg».proof.Proof.LibHostKept
import proofs.«118180_j22376779612621_1_alg».proof.Proof.LibBroadcast
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg) (c : Dev nD)

/-! ## A region's output from what it finds -/

/-- Region 0's output array, from what the region finds in its six input arrays. -/
theorem found0 (V : (c : Dev nD) → (b : Ref sig .tc) → Buf (Elt Ideal) ((c : Thread nD τ).loc b)) (c : Dev nD)
    (x a : FVec Ideal S100000x64 .f32) (w1 : FVec Ideal S64x64 .f32) (b1 : FVec Ideal S64 .f32) (w2 : FVec Ideal S64x64 .f32) (b2 : FVec Ideal S64 .f32)
    (h0 : (V c main_arg0 : S100000x64.Idx → EReal) = x) (h1 : (V c main_v13 : S100000x64.Idx → EReal) = a)
    (h2 : (V c main_v15 : S64x64.Idx → EReal) = w1) (h3 : (V c main_v22 : S1x64.Idx → EReal) = shapeCast S1x64 b1 shapeCasts_S64_S1x64)
    (h4 : (V c main_v19 : S64x64.Idx → EReal) = w2) (h5 : (V c main_v23 : S1x64.Idx → EReal) = shapeCast S1x64 b2 shapeCasts_S64_S1x64) :
    (dat0 V c).arrAt 6 cfg0.N = Gin.layer (n := 100000) x a w1 (fun q => b1 (ix1 q)) w2 (fun q => b2 (ix1 q)) := by
  rw [final0]
  dsimp only [G0]
  rw [h0, h1, h2, h3, h4, h5]
  simp only [Cert.Layout.shapeCast_row_apply]
/-- Region 1's output array, from what the region finds in its six input arrays. -/
theorem found1 (V : (c : Dev nD) → (b : Ref sig .tc) → Buf (Elt Ideal) ((c : Thread nD τ).loc b)) (c : Dev nD)
    (x a : FVec Ideal S100000x64 .f32) (w1 : FVec Ideal S64x64 .f32) (b1 : FVec Ideal S64 .f32) (w2 : FVec Ideal S64x64 .f32) (b2 : FVec Ideal S64 .f32)
    (h0 : (V c main_v24 : S100000x64.Idx → EReal) = x) (h1 : (V c main_v34 : S100000x64.Idx → EReal) = a)
    (h2 : (V c main_v36 : S64x64.Idx → EReal) = w1) (h3 : (V c main_v43 : S1x64.Idx → EReal) = shapeCast S1x64 b1 shapeCasts_S64_S1x64)
    (h4 : (V c main_v40 : S64x64.Idx → EReal) = w2) (h5 : (V c main_v44 : S1x64.Idx → EReal) = shapeCast S1x64 b2 shapeCasts_S64_S1x64) :
    (dat1 V c).arrAt 6 cfg1.N = Gin.layer (n := 100000) x a w1 (fun q => b1 (ix1 q)) w2 (fun q => b2 (ix1 q)) := by
  rw [final1]
  dsimp only [G1]
  rw [h0, h1, h2, h3, h4, h5]
  simp only [Cert.Layout.shapeCast_row_apply]
/-- Region 2's output array, from what the region finds in its six input arrays. -/
theorem found2 (V : (c : Dev nD) → (b : Ref sig .tc) → Buf (Elt Ideal) ((c : Thread nD τ).loc b)) (c : Dev nD)
    (x a : FVec Ideal S100000x64 .f32) (w1 : FVec Ideal S64x64 .f32) (b1 : FVec Ideal S64 .f32) (w2 : FVec Ideal S64x64 .f32) (b2 : FVec Ideal S64 .f32)
    (h0 : (V c main_v45 : S100000x64.Idx → EReal) = x) (h1 : (V c main_v55 : S100000x64.Idx → EReal) = a)
    (h2 : (V c main_v57 : S64x64.Idx → EReal) = w1) (h3 : (V c main_v64 : S1x64.Idx → EReal) = shapeCast S1x64 b1 shapeCasts_S64_S1x64)
    (h4 : (V c main_v61 : S64x64.Idx → EReal) = w2) (h5 : (V c main_v65 : S1x64.Idx → EReal) = shapeCast S1x64 b2 shapeCasts_S64_S1x64) :
    (dat2 V c).arrAt 6 cfg2.N = Gin.layer (n := 100000) x a w1 (fun q => b1 (ix1 q)) w2 (fun q => b2 (ix1 q)) := by
  rw [final2]
  dsimp only [G2]
  rw [h0, h1, h2, h3, h4, h5]
  simp only [Cert.Layout.shapeCast_row_apply]
/-- The readout region's output array, from what the region finds in its five input arrays. -/
theorem found3 (V : (c : Dev nD) → (b : Ref sig .tc) → Buf (Elt Ideal) ((c : Thread nD τ).loc b)) (c : Dev nD)
    (p : FVec Ideal S1024x64 .f32) (w1 : FVec Ideal S64x64 .f32) (b1 : FVec Ideal S64 .f32) (w2 : FVec Ideal S64x1 .f32) (b2 : FVec Ideal S1 .f32)
    (h0 : (V c main_v69 : S1024x64.Idx → EReal) = p) (h1 : (V c main_arg7 : S64x64.Idx → EReal) = w1)
    (h2 : (V c main_v70 : S1x64.Idx → EReal) = shapeCast S1x64 b1 shapeCasts_S64_S1x64)
    (h3 : (V c main_arg9 : S64x1.Idx → EReal) = w2) (h4 : (V c main_v71 : S1x1.Idx → EReal) = shapeCast S1x1 b2 shapeCasts_S1_S1x1) :
    (dat3 V c).arrAt 5 cfg3.N = Gin.head (n := 1024) p w1 (fun q => b1 (ix1 q)) w2 (fun q => b2 (ix1 q)) := by
  rw [final3]
  dsimp only [G3]
  rw [h0, h1, h2, h3, h4]
  simp only [Cert.Layout.shapeCast_row_apply]

/-! ## The three layers' outputs, of the arguments -/

/-- The first layer of the arguments. -/
def H1 : FVec Ideal S100000x64 .f32 := Gin.conv (m ((c : Thread nD τ).loc main_arg0)) (Gin.srcV (m ((c : Thread nD τ).loc main_arg1))) (Gin.dstV (m ((c : Thread nD τ).loc main_arg1))) (Gin.wmat ![0, 0, 0] slices_S3x64x64_S1x64x64_0_0_0 (m ((c : Thread nD τ).loc main_arg3))) (Gin.bvec ![0, 0] slices_S3x64_S1x64_0_0 (m ((c : Thread nD τ).loc main_arg4))) (Gin.wmat ![0, 0, 0] slices_S3x64x64_S1x64x64_0_0_0 (m ((c : Thread nD τ).loc main_arg5))) (Gin.bvec ![0, 0] slices_S3x64_S1x64_0_0 (m ((c : Thread nD τ).loc main_arg6)))
/-- The second layer. -/
def H2 : FVec Ideal S100000x64 .f32 := Gin.conv (H1 m c) (Gin.srcV (m ((c : Thread nD τ).loc main_arg1))) (Gin.dstV (m ((c : Thread nD τ).loc main_arg1))) (Gin.wmat ![1, 0, 0] slices_S3x64x64_S1x64x64_1_0_0 (m ((c : Thread nD τ).loc main_arg3))) (Gin.bvec ![1, 0] slices_S3x64_S1x64_1_0 (m ((c : Thread nD τ).loc main_arg4))) (Gin.wmat ![1, 0, 0] slices_S3x64x64_S1x64x64_1_0_0 (m ((c : Thread nD τ).loc main_arg5))) (Gin.bvec ![1, 0] slices_S3x64_S1x64_1_0 (m ((c : Thread nD τ).loc main_arg6)))
/-- The third layer. -/
def H3 : FVec Ideal S100000x64 .f32 := Gin.conv (H2 m c) (Gin.srcV (m ((c : Thread nD τ).loc main_arg1))) (Gin.dstV (m ((c : Thread nD τ).loc main_arg1))) (Gin.wmat ![2, 0, 0] slices_S3x64x64_S1x64x64_2_0_0 (m ((c : Thread nD τ).loc main_arg3))) (Gin.bvec ![2, 0] slices_S3x64_S1x64_2_0 (m ((c : Thread nD τ).loc main_arg4))) (Gin.wmat ![2, 0, 0] slices_S3x64x64_S1x64x64_2_0_0 (m ((c : Thread nD τ).loc main_arg5))) (Gin.bvec ![2, 0] slices_S3x64_S1x64_2_0 (m ((c : Thread nD τ).loc main_arg6)))

/-! ## After the first host stretch -/

theorem W1_arg0 : W1 m ρ c (Proc.devRef .tc main_arg0) = (m ((c : Thread nD τ).loc main_arg0)) := by
  show StableHlo.after hostOps0 (W0 m ρ c) (Proc.devRef .tc main_arg0) = _
  host_kept hostOps0
theorem W1_arg2 : W1 m ρ c (Proc.devRef .tc main_arg2) = (m ((c : Thread nD τ).loc main_arg2)) := by
  show StableHlo.after hostOps0 (W0 m ρ c) (Proc.devRef .tc main_arg2) = _
  host_kept hostOps0
theorem W1_arg3 : W1 m ρ c (Proc.devRef .tc main_arg3) = (m ((c : Thread nD τ).loc main_arg3)) := by
  show StableHlo.after hostOps0 (W0 m ρ c) (Proc.devRef .tc main_arg3) = _
  host_kept hostOps0
theorem W1_arg4 : W1 m ρ c (Proc.devRef .tc main_arg4) = (m ((c : Thread nD τ).loc main_arg4)) := by
  show StableHlo.after hostOps0 (W0 m ρ c) (Proc.devRef .tc main_arg4) = _
  host_kept hostOps0
theorem W1_arg5 : W1 m ρ c (Proc.devRef .tc main_arg5) = (m ((c : Thread nD τ).loc main_arg5)) := by
  show StableHlo.after hostOps0 (W0 m ρ c) (Proc.devRef .tc main_arg5) = _
  host_kept hostOps0
theorem W1_arg6 : W1 m ρ c (Proc.devRef .tc main_arg6) = (m ((c : Thread nD τ).loc main_arg6)) := by
  show StableHlo.after hostOps0 (W0 m ρ c) (Proc.devRef .tc main_arg6) = _
  host_kept hostOps0
theorem W1_arg7 : W1 m ρ c (Proc.devRef .tc main_arg7) = (m ((c : Thread nD τ).loc main_arg7)) := by
  show StableHlo.after hostOps0 (W0 m ρ c) (Proc.devRef .tc main_arg7) = _
  host_kept hostOps0
theorem W1_arg8 : W1 m ρ c (Proc.devRef .tc main_arg8) = (m ((c : Thread nD τ).loc main_arg8)) := by
  show StableHlo.after hostOps0 (W0 m ρ c) (Proc.devRef .tc main_arg8) = _
  host_kept hostOps0
theorem W1_arg9 : W1 m ρ c (Proc.devRef .tc main_arg9) = (m ((c : Thread nD τ).loc main_arg9)) := by
  show StableHlo.after hostOps0 (W0 m ρ c) (Proc.devRef .tc main_arg9) = _
  host_kept hostOps0
theorem W1_arg10 : W1 m ρ c (Proc.devRef .tc main_arg10) = (m ((c : Thread nD τ).loc main_arg10)) := by
  show StableHlo.after hostOps0 (W0 m ρ c) (Proc.devRef .tc main_arg10) = _
  host_kept hostOps0
theorem W1_v1 : W1 m ρ c (Proc.devRef .tc main_v1) = (Gin.srcV (m ((c : Thread nD τ).loc main_arg1))) := by
  show StableHlo.after hostOps0 (W0 m ρ c) (Proc.devRef .tc main_v1) = _
  dsimp only [hostOps0]
  after_results
  rfl
theorem W1_v3 : W1 m ρ c (Proc.devRef .tc main_v3) = (Gin.dstV (m ((c : Thread nD τ).loc main_arg1))) := by
  show StableHlo.after hostOps0 (W0 m ρ c) (Proc.devRef .tc main_v3) = _
  dsimp only [hostOps0]
  after_results
  rfl
set_option maxHeartbeats 4000000 in
theorem W1_v13 : W1 m ρ c (Proc.devRef .tc main_v13) = Gin.agg (m ((c : Thread nD τ).loc main_arg0)) (Gin.srcV (m ((c : Thread nD τ).loc main_arg1))) (Gin.dstV (m ((c : Thread nD τ).loc main_arg1))) := by
  show StableHlo.after hostOps0 (W0 m ρ c) (Proc.devRef .tc main_v13) = _
  dsimp only [hostOps0]
  after_results_simp
  rfl
theorem W1_v15 : W1 m ρ c (Proc.devRef .tc main_v15) = (Gin.wmat ![0, 0, 0] slices_S3x64x64_S1x64x64_0_0_0 (m ((c : Thread nD τ).loc main_arg3))) := by
  show StableHlo.after hostOps0 (W0 m ρ c) (Proc.devRef .tc main_v15) = _
  dsimp only [hostOps0]
  after_results
  rfl
theorem W1_v22 : W1 m ρ c (Proc.devRef .tc main_v22) = (shapeCast S1x64 (Gin.bvec ![0, 0] slices_S3x64_S1x64_0_0 (m ((c : Thread nD τ).loc main_arg4))) shapeCasts_S64_S1x64) := by
  show StableHlo.after hostOps0 (W0 m ρ c) (Proc.devRef .tc main_v22) = _
  dsimp only [hostOps0]
  after_results
  rfl
theorem W1_v19 : W1 m ρ c (Proc.devRef .tc main_v19) = (Gin.wmat ![0, 0, 0] slices_S3x64x64_S1x64x64_0_0_0 (m ((c : Thread nD τ).loc main_arg5))) := by
  show StableHlo.after hostOps0 (W0 m ρ c) (Proc.devRef .tc main_v19) = _
  dsimp only [hostOps0]
  after_results
  rfl
theorem W1_v23 : W1 m ρ c (Proc.devRef .tc main_v23) = (shapeCast S1x64 (Gin.bvec ![0, 0] slices_S3x64_S1x64_0_0 (m ((c : Thread nD τ).loc main_arg6))) shapeCasts_S64_S1x64) := by
  show StableHlo.after hostOps0 (W0 m ρ c) (Proc.devRef .tc main_v23) = _
  dsimp only [hostOps0]
  after_results
  rfl

/-! ## After the first region -/

theorem W2_v24 : W2 m ρ c (Proc.devRef .tc main_v24) = (H1 m c) := (W2_arr m ρ c 6).trans ((found0 (V1 m ρ) c _ _ _ _ _ _ (W1_arg0 m ρ c) (W1_v13 m ρ c) (W1_v15 m ρ c) (W1_v22 m ρ c) (W1_v19 m ρ c) (W1_v23 m ρ c)).trans rfl)
theorem W2_v1 : W2 m ρ c (Proc.devRef .tc main_v1) = (Gin.srcV (m ((c : Thread nD τ).loc main_arg1))) := (W2_of_ne m ρ c main_v1 (by decide)).trans (W1_v1 m ρ c)
theorem W2_v3 : W2 m ρ c (Proc.devRef .tc main_v3) = (Gin.dstV (m ((c : Thread nD τ).loc main_arg1))) := (W2_of_ne m ρ c main_v3 (by decide)).trans (W1_v3 m ρ c)
theorem W2_arg2 : W2 m ρ c (Proc.devRef .tc main_arg2) = (m ((c : Thread nD τ).loc main_arg2)) := (W2_of_ne m ρ c main_arg2 (by decide)).trans (W1_arg2 m ρ c)
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)
theorem W2_arg6 : W2 m ρ c (Proc.devRef .tc main_arg6) = (m ((c : Thread nD τ).loc main_arg6)) := (W2_of_ne m ρ c main_arg6 (by decide)).trans (W1_arg6 m ρ c)
theorem W2_arg7 : W2 m ρ c (Proc.devRef .tc main_arg7) = (m ((c : Thread nD τ).loc main_arg7)) := (W2_of_ne m ρ c main_arg7 (by decide)).trans (W1_arg7 m ρ c)
theorem W2_arg8 : W2 m ρ c (Proc.devRef .tc main_arg8) = (m ((c : Thread nD τ).loc main_arg8)) := (W2_of_ne m ρ c main_arg8 (by decide)).trans (W1_arg8 m ρ c)
theorem W2_arg9 : W2 m ρ c (Proc.devRef .tc main_arg9) = (m ((c : Thread nD τ).loc main_arg9)) := (W2_of_ne m ρ c main_arg9 (by decide)).trans (W1_arg9 m ρ c)
theorem W2_arg10 : W2 m ρ c (Proc.devRef .tc main_arg10) = (m ((c : Thread nD τ).loc main_arg10)) := (W2_of_ne m ρ c main_arg10 (by decide)).trans (W1_arg10 m ρ c)

/-! ## After the second host stretch -/

theorem W3_v24 : W3 m ρ c (Proc.devRef .tc main_v24) = (H1 m c) := by
  refine Eq.trans ?_ (W2_v24 m ρ c)
  show StableHlo.after hostOps1 (W2 m ρ c) (Proc.devRef .tc main_v24) = _
  host_kept hostOps1
set_option maxHeartbeats 4000000 in
theorem W3_v34 : W3 m ρ c (Proc.devRef .tc main_v34) = Gin.agg (H1 m c) (Gin.srcV (m ((c : Thread nD τ).loc main_arg1))) (Gin.dstV (m ((c : Thread nD τ).loc main_arg1))) := by
  show StableHlo.after hostOps1 (W2 m ρ c) (Proc.devRef .tc main_v34) = _
  dsimp only [hostOps1]
  after_results_simp
  rw [W2_v24 m ρ c, W2_v1 m ρ c, W2_v3 m ρ c]
  rfl
theorem W3_v36 : W3 m ρ c (Proc.devRef .tc main_v36) = (Gin.wmat ![1, 0, 0] slices_S3x64x64_S1x64x64_1_0_0 (m ((c : Thread nD τ).loc main_arg3))) := by
  show StableHlo.after hostOps1 (W2 m ρ c) (Proc.devRef .tc main_v36) = _
  dsimp only [hostOps1]
  after_results
  rw [W2_arg3 m ρ c]
  rfl
theorem W3_v43 : W3 m ρ c (Proc.devRef .tc main_v43) = (shapeCast S1x64 (Gin.bvec ![1, 0] slices_S3x64_S1x64_1_0 (m ((c : Thread nD τ).loc main_arg4))) shapeCasts_S64_S1x64) := by
  show StableHlo.after hostOps1 (W2 m ρ c) (Proc.devRef .tc main_v43) = _
  dsimp only [hostOps1]
  after_results
  rw [W2_arg4 m ρ c]
  rfl
theorem W3_v40 : W3 m ρ c (Proc.devRef .tc main_v40) = (Gin.wmat ![1, 0, 0] slices_S3x64x64_S1x64x64_1_0_0 (m ((c : Thread nD τ).loc main_arg5))) := by
  show StableHlo.after hostOps1 (W2 m ρ c) (Proc.devRef .tc main_v40) = _
  dsimp only [hostOps1]
  after_results
  rw [W2_arg5 m ρ c]
  rfl
theorem W3_v44 : W3 m ρ c (Proc.devRef .tc main_v44) = (shapeCast S1x64 (Gin.bvec ![1, 0] slices_S3x64_S1x64_1_0 (m ((c : Thread nD τ).loc main_arg6))) shapeCasts_S64_S1x64) := by
  show StableHlo.after hostOps1 (W2 m ρ c) (Proc.devRef .tc main_v44) = _
  dsimp only [hostOps1]
  after_results
  rw [W2_arg6 m ρ c]
  rfl
theorem W3_v1 : W3 m ρ c (Proc.devRef .tc main_v1) = (Gin.srcV (m ((c : Thread nD τ).loc main_arg1))) := by
  refine Eq.trans ?_ (W2_v1 m ρ c)
  show StableHlo.after hostOps1 (W2 m ρ c) (Proc.devRef .tc main_v1) = _
  host_kept hostOps1
theorem W3_v3 : W3 m ρ c (Proc.devRef .tc main_v3) = (Gin.dstV (m ((c : Thread nD τ).loc main_arg1))) := by
  refine Eq.trans ?_ (W2_v3 m ρ c)
  show StableHlo.after hostOps1 (W2 m ρ c) (Proc.devRef .tc main_v3) = _
  host_kept hostOps1
theorem W3_arg2 : W3 m ρ c (Proc.devRef .tc main_arg2) = (m ((c : Thread nD τ).loc main_arg2)) := by
  refine Eq.trans ?_ (W2_arg2 m ρ c)
  show StableHlo.after hostOps1 (W2 m ρ c) (Proc.devRef .tc main_arg2) = _
  host_kept hostOps1
theorem W3_arg3 : W3 m ρ c (Proc.devRef .tc main_arg3) = (m ((c : Thread nD τ).loc main_arg3)) := by
  refine Eq.trans ?_ (W2_arg3 m ρ c)
  show StableHlo.after hostOps1 (W2 m ρ c) (Proc.devRef .tc main_arg3) = _
  host_kept hostOps1
theorem W3_arg4 : W3 m ρ c (Proc.devRef .tc main_arg4) = (m ((c : Thread nD τ).loc main_arg4)) := by
  refine Eq.trans ?_ (W2_arg4 m ρ c)
  show StableHlo.after hostOps1 (W2 m ρ c) (Proc.devRef .tc main_arg4) = _
  host_kept hostOps1
theorem W3_arg5 : W3 m ρ c (Proc.devRef .tc main_arg5) = (m ((c : Thread nD τ).loc main_arg5)) := by
  refine Eq.trans ?_ (W2_arg5 m ρ c)
  show StableHlo.after hostOps1 (W2 m ρ c) (Proc.devRef .tc main_arg5) = _
  host_kept hostOps1
theorem W3_arg6 : W3 m ρ c (Proc.devRef .tc main_arg6) = (m ((c : Thread nD τ).loc main_arg6)) := by
  refine Eq.trans ?_ (W2_arg6 m ρ c)
  show StableHlo.after hostOps1 (W2 m ρ c) (Proc.devRef .tc main_arg6) = _
  host_kept hostOps1
theorem W3_arg7 : W3 m ρ c (Proc.devRef .tc main_arg7) = (m ((c : Thread nD τ).loc main_arg7)) := by
  refine Eq.trans ?_ (W2_arg7 m ρ c)
  show StableHlo.after hostOps1 (W2 m ρ c) (Proc.devRef .tc main_arg7) = _
  host_kept hostOps1
theorem W3_arg8 : W3 m ρ c (Proc.devRef .tc main_arg8) = (m ((c : Thread nD τ).loc main_arg8)) := by
  refine Eq.trans ?_ (W2_arg8 m ρ c)
  show StableHlo.after hostOps1 (W2 m ρ c) (Proc.devRef .tc main_arg8) = _
  host_kept hostOps1
theorem W3_arg9 : W3 m ρ c (Proc.devRef .tc main_arg9) = (m ((c : Thread nD τ).loc main_arg9)) := by
  refine Eq.trans ?_ (W2_arg9 m ρ c)
  show StableHlo.after hostOps1 (W2 m ρ c) (Proc.devRef .tc main_arg9) = _
  host_kept hostOps1
theorem W3_arg10 : W3 m ρ c (Proc.devRef .tc main_arg10) = (m ((c : Thread nD τ).loc main_arg10)) := by
  refine Eq.trans ?_ (W2_arg10 m ρ c)
  show StableHlo.after hostOps1 (W2 m ρ c) (Proc.devRef .tc main_arg10) = _
  host_kept hostOps1

/-! ## After the second region -/

theorem W4_v45 : W4 m ρ c (Proc.devRef .tc main_v45) = (H2 m c) := (W4_arr m ρ c 6).trans ((found1 (V3 m ρ) c _ _ _ _ _ _ (W3_v24 m ρ c) (W3_v34 m ρ c) (W3_v36 m ρ c) (W3_v43 m ρ c) (W3_v40 m ρ c) (W3_v44 m ρ c)).trans rfl)
theorem W4_v1 : W4 m ρ c (Proc.devRef .tc main_v1) = (Gin.srcV (m ((c : Thread nD τ).loc main_arg1))) := (W4_of_ne m ρ c main_v1 (by decide)).trans (W3_v1 m ρ c)
theorem W4_v3 : W4 m ρ c (Proc.devRef .tc main_v3) = (Gin.dstV (m ((c : Thread nD τ).loc main_arg1))) := (W4_of_ne m ρ c main_v3 (by decide)).trans (W3_v3 m ρ c)
theorem W4_arg2 : W4 m ρ c (Proc.devRef .tc main_arg2) = (m ((c : Thread nD τ).loc main_arg2)) := (W4_of_ne m ρ c main_arg2 (by decide)).trans (W3_arg2 m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)
theorem W4_arg7 : W4 m ρ c (Proc.devRef .tc main_arg7) = (m ((c : Thread nD τ).loc main_arg7)) := (W4_of_ne m ρ c main_arg7 (by decide)).trans (W3_arg7 m ρ c)
theorem W4_arg8 : W4 m ρ c (Proc.devRef .tc main_arg8) = (m ((c : Thread nD τ).loc main_arg8)) := (W4_of_ne m ρ c main_arg8 (by decide)).trans (W3_arg8 m ρ c)
theorem W4_arg9 : W4 m ρ c (Proc.devRef .tc main_arg9) = (m ((c : Thread nD τ).loc main_arg9)) := (W4_of_ne m ρ c main_arg9 (by decide)).trans (W3_arg9 m ρ c)
theorem W4_arg10 : W4 m ρ c (Proc.devRef .tc main_arg10) = (m ((c : Thread nD τ).loc main_arg10)) := (W4_of_ne m ρ c main_arg10 (by decide)).trans (W3_arg10 m ρ c)

/-! ## After the third host stretch -/

theorem W5_v45 : W5 m ρ c (Proc.devRef .tc main_v45) = (H2 m c) := by
  refine Eq.trans ?_ (W4_v45 m ρ c)
  show StableHlo.after hostOps2 (W4 m ρ c) (Proc.devRef .tc main_v45) = _
  host_kept hostOps2
set_option maxHeartbeats 4000000 in
theorem W5_v55 : W5 m ρ c (Proc.devRef .tc main_v55) = Gin.agg (H2 m c) (Gin.srcV (m ((c : Thread nD τ).loc main_arg1))) (Gin.dstV (m ((c : Thread nD τ).loc main_arg1))) := by
  show StableHlo.after hostOps2 (W4 m ρ c) (Proc.devRef .tc main_v55) = _
  dsimp only [hostOps2]
  after_results_simp
  rw [W4_v45 m ρ c, W4_v1 m ρ c, W4_v3 m ρ c]
  rfl
theorem W5_v57 : W5 m ρ c (Proc.devRef .tc main_v57) = (Gin.wmat ![2, 0, 0] slices_S3x64x64_S1x64x64_2_0_0 (m ((c : Thread nD τ).loc main_arg3))) := by
  show StableHlo.after hostOps2 (W4 m ρ c) (Proc.devRef .tc main_v57) = _
  dsimp only [hostOps2]
  after_results
  rw [W4_arg3 m ρ c]
  rfl
theorem W5_v64 : W5 m ρ c (Proc.devRef .tc main_v64) = (shapeCast S1x64 (Gin.bvec ![2, 0] slices_S3x64_S1x64_2_0 (m ((c : Thread nD τ).loc main_arg4))) shapeCasts_S64_S1x64) := by
  show StableHlo.after hostOps2 (W4 m ρ c) (Proc.devRef .tc main_v64) = _
  dsimp only [hostOps2]
  after_results
  rw [W4_arg4 m ρ c]
  rfl
theorem W5_v61 : W5 m ρ c (Proc.devRef .tc main_v61) = (Gin.wmat ![2, 0, 0] slices_S3x64x64_S1x64x64_2_0_0 (m ((c : Thread nD τ).loc main_arg5))) := by
  show StableHlo.after hostOps2 (W4 m ρ c) (Proc.devRef .tc main_v61) = _
  dsimp only [hostOps2]
  after_results
  rw [W4_arg5 m ρ c]
  rfl
theorem W5_v65 : W5 m ρ c (Proc.devRef .tc main_v65) = (shapeCast S1x64 (Gin.bvec ![2, 0] slices_S3x64_S1x64_2_0 (m ((c : Thread nD τ).loc main_arg6))) shapeCasts_S64_S1x64) := by
  show StableHlo.after hostOps2 (W4 m ρ c) (Proc.devRef .tc main_v65) = _
  dsimp only [hostOps2]
  after_results
  rw [W4_arg6 m ρ c]
  rfl
theorem W5_arg2 : W5 m ρ c (Proc.devRef .tc main_arg2) = (m ((c : Thread nD τ).loc main_arg2)) := by
  refine Eq.trans ?_ (W4_arg2 m ρ c)
  show StableHlo.after hostOps2 (W4 m ρ c) (Proc.devRef .tc main_arg2) = _
  host_kept hostOps2
theorem W5_arg7 : W5 m ρ c (Proc.devRef .tc main_arg7) = (m ((c : Thread nD τ).loc main_arg7)) := by
  refine Eq.trans ?_ (W4_arg7 m ρ c)
  show StableHlo.after hostOps2 (W4 m ρ c) (Proc.devRef .tc main_arg7) = _
  host_kept hostOps2
theorem W5_arg8 : W5 m ρ c (Proc.devRef .tc main_arg8) = (m ((c : Thread nD τ).loc main_arg8)) := by
  refine Eq.trans ?_ (W4_arg8 m ρ c)
  show StableHlo.after hostOps2 (W4 m ρ c) (Proc.devRef .tc main_arg8) = _
  host_kept hostOps2
theorem W5_arg9 : W5 m ρ c (Proc.devRef .tc main_arg9) = (m ((c : Thread nD τ).loc main_arg9)) := by
  refine Eq.trans ?_ (W4_arg9 m ρ c)
  show StableHlo.after hostOps2 (W4 m ρ c) (Proc.devRef .tc main_arg9) = _
  host_kept hostOps2
theorem W5_arg10 : W5 m ρ c (Proc.devRef .tc main_arg10) = (m ((c : Thread nD τ).loc main_arg10)) := by
  refine Eq.trans ?_ (W4_arg10 m ρ c)
  show StableHlo.after hostOps2 (W4 m ρ c) (Proc.devRef .tc main_arg10) = _
  host_kept hostOps2

/-! ## After the third region -/

theorem W6_v66 : W6 m ρ c (Proc.devRef .tc main_v66) = (H3 m c) := (W6_arr m ρ c 6).trans ((found2 (V5 m ρ) c _ _ _ _ _ _ (W5_v45 m ρ c) (W5_v55 m ρ c) (W5_v57 m ρ c) (W5_v64 m ρ c) (W5_v61 m ρ c) (W5_v65 m ρ c)).trans rfl)
theorem W6_arg2 : W6 m ρ c (Proc.devRef .tc main_arg2) = (m ((c : Thread nD τ).loc main_arg2)) := (W6_of_ne m ρ c main_arg2 (by decide)).trans (W5_arg2 m ρ c)
theorem W6_arg7 : W6 m ρ c (Proc.devRef .tc main_arg7) = (m ((c : Thread nD τ).loc main_arg7)) := (W6_of_ne m ρ c main_arg7 (by decide)).trans (W5_arg7 m ρ c)
theorem W6_arg8 : W6 m ρ c (Proc.devRef .tc main_arg8) = (m ((c : Thread nD τ).loc main_arg8)) := (W6_of_ne m ρ c main_arg8 (by decide)).trans (W5_arg8 m ρ c)
theorem W6_arg9 : W6 m ρ c (Proc.devRef .tc main_arg9) = (m ((c : Thread nD τ).loc main_arg9)) := (W6_of_ne m ρ c main_arg9 (by decide)).trans (W5_arg9 m ρ c)
theorem W6_arg10 : W6 m ρ c (Proc.devRef .tc main_arg10) = (m ((c : Thread nD τ).loc main_arg10)) := (W6_of_ne m ρ c main_arg10 (by decide)).trans (W5_arg10 m ρ c)

/-! ## After the last host stretch -/

theorem W7_v69 : W7 m ρ c (Proc.devRef .tc main_v69) = Gin.pool (H3 m c) (m ((c : Thread nD τ).loc main_arg2)) := by
  show StableHlo.after hostOps3 (W6 m ρ c) (Proc.devRef .tc main_v69) = _
  dsimp only [hostOps3]
  after_results
  rw [W6_v66 m ρ c, W6_arg2 m ρ c]
  rfl
theorem W7_v70 : W7 m ρ c (Proc.devRef .tc main_v70) = shapeCast S1x64 (m ((c : Thread nD τ).loc main_arg8)) shapeCasts_S64_S1x64 := by
  show StableHlo.after hostOps3 (W6 m ρ c) (Proc.devRef .tc main_v70) = _
  dsimp only [hostOps3]
  after_results
  rw [W6_arg8 m ρ c]
  rfl
theorem W7_v71 : W7 m ρ c (Proc.devRef .tc main_v71) = shapeCast S1x1 (m ((c : Thread nD τ).loc main_arg10)) shapeCasts_S1_S1x1 := by
  show StableHlo.after hostOps3 (W6 m ρ c) (Proc.devRef .tc main_v71) = _
  dsimp only [hostOps3]
  after_results
  rw [W6_arg10 m ρ c]
  rfl
theorem W7_arg7 : W7 m ρ c (Proc.devRef .tc main_arg7) = (m ((c : Thread nD τ).loc main_arg7)) := by
  refine Eq.trans ?_ (W6_arg7 m ρ c)
  show StableHlo.after hostOps3 (W6 m ρ c) (Proc.devRef .tc main_arg7) = _
  host_kept hostOps3
theorem W7_arg9 : W7 m ρ c (Proc.devRef .tc main_arg9) = (m ((c : Thread nD τ).loc main_arg9)) := by
  refine Eq.trans ?_ (W6_arg9 m ρ c)
  show StableHlo.after hostOps3 (W6 m ρ c) (Proc.devRef .tc main_arg9) = _
  host_kept hostOps3

/-! ## After the readout region -/

/-- The result buffer after the run holds the network of the argument arrays. -/
theorem W8_v72 : W8 m ρ c (Proc.devRef .tc main_v72) = Gin.gin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := (W8_arr m ρ c 5).trans ((found3 (V7 m ρ) c _ _ _ _ _ (W7_v69 m ρ c) (W7_arg7 m ρ c) (W7_v70 m ρ c) (W7_arg9 m ρ c) (W7_v71 m ρ c)).trans rfl)

end Cert.KernelIdeal.Hand

end
-- ==== Proof.RefValue.lean ====
/-
  The host reference computes the network.

  Its run ends with the result at one composed term of the arguments.  Each of its three layer stretches — the sum
  of the features and the aggregate, a product with the weights, the bias repeated down the rows, the maximum with
  zero, twice — is the array-level layer function, entry by entry: the host's product at (P, q) is the sum over the
  shared coordinate, the repeated bias at (P, q) is its entry q, the maximum is taken entrywise.  The readout
  likewise.  The gather and the scatter-adds are the same operations on the same operands as in the network's
  definition.
-/
import proofs.«118180_j22376779612621_1_alg».proof.Proof.Gen.ReferenceIdeal.Run
import proofs.«118180_j22376779612621_1_alg».proof.Proof.Spec

noncomputable section

namespace Cert.ReferenceIdeal.Hand

open Cert.ReferenceIdeal Cert.ReferenceIdeal.Facts₀ Idealize.ShloMosaic Idealize.ShloMosaic.TcCoe Idealize.SL.Sem
open Idealize.ShloMosaic.ValueIdx

/-- One layer stretch of the reference, on any features h and aggregate a, is the layer function. -/
theorem ref_layer (h a : FVec Ideal S100000x64 .f32) (w1 : FVec Ideal S64x64 .f32) (b1 : FVec Ideal S64 .f32)
    (w2 : FVec Ideal S64x64 .f32) (b2 : FVec Ideal S64 .f32) :
    maximumf (addf (Host.dotGeneral dot_S100000x64_S64x64_S100000x64_1_0_0_1_n_n none
        (maximumf (addf (Host.dotGeneral dot_S100000x64_S64x64_S100000x64_1_0_0_1_n_n none (addf h a) w1)
            (broadcastInDim S100000x64 ![0, 1] bcast_S1x64_S100000x64_0_1 (broadcastInDim S1x64 ![1] bcast_S64_S1x64_1 b1)))
          (broadcastInDim S100000x64 ![] bcast_S_S100000x64 (constant S_ .f32 0x00000000#32))) w2)
        (broadcastInDim S100000x64 ![0, 1] bcast_S1x64_S100000x64_0_1 (broadcastInDim S1x64 ![1] bcast_S64_S1x64_1 b2)))
      (broadcastInDim S100000x64 ![] bcast_S_S100000x64 (constant S_ .f32 0x00000000#32))
    = Gin.layer (n := 100000) h a w1 (fun q => b1 (ix1 q)) w2 (fun q => b2 (ix1 q)) := by
  funext i
  obtain ⟨P, q, rfl⟩ : ∃ (P : Fin 100000) (q : Fin 64), i = ix2 P q := ⟨i 0, i 1, eq_ix2 i⟩
  refine (Gin.host_dense_apply _ _ _ _ _ _ _ P q).trans ?_
  refine congrArg (fun z => Gin.dense z w2 (fun q => b2 (ix1 q)) q) (funext fun k => ?_)
  exact Gin.host_dense_apply _ _ _ _ _ _ _ P k

/-- The reference's readout stretch, on any pooled rows p, is the readout function. -/
theorem ref_head (p : FVec Ideal S1024x64 .f32) (w1 : FVec Ideal S64x64 .f32) (b1 : FVec Ideal S64 .f32)
    (w2 : FVec Ideal S64x1 .f32) (b2 : FVec Ideal S1 .f32) :
    addf (Host.dotGeneral dot_S1024x64_S64x1_S1024x1_1_0_0_1_n_n none
        (maximumf (addf (Host.dotGeneral dot_S1024x64_S64x64_S1024x64_1_0_0_1_n_n none p w1)
            (broadcastInDim S1024x64 ![0, 1] bcast_S1x64_S1024x64_0_1 (broadcastInDim S1x64 ![1] bcast_S64_S1x64_1 b1)))
          (broadcastInDim S1024x64 ![] bcast_S_S1024x64 (constant S_ .f32 0x00000000#32))) w2)
      (broadcastInDim S1024x1 ![0, 1] bcast_S1x1_S1024x1_0_1 (broadcastInDim S1x1 ![1] bcast_S1_S1x1_1 b2))
    = Gin.head (n := 1024) p w1 (fun q => b1 (ix1 q)) w2 (fun q => b2 (ix1 q)) := by
  funext i
  obtain ⟨P, q, rfl⟩ : ∃ (P : Fin 1024) (q : Fin 1), i = ix2 P q := ⟨i 0, i 1, eq_ix2 i⟩
  refine (Gin.host_affine_apply _ _ _ _ _ _ P q).trans ?_
  refine congrArg (fun z => Gin.affine z w2 (fun q => b2 (ix1 q)) q) (funext fun k => ?_)
  exact Gin.host_dense_apply _ _ _ _ _ _ _ P k

set_option maxRecDepth 200000 in
/-- The reference's result term is the network of the argument arrays. -/
theorem ref_eq (m : (ℓ : Loc nD τ sig) → Buf (Elt Ideal) ℓ) (c : Dev nD) :
    Cert.ReferenceIdeal.Value.res_main_v102 (F := Ideal) m c
      = Gin.gin (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.Value.res_main_v102
  rw [ref_head, ref_layer, ref_layer, ref_layer]
  rfl

end Cert.ReferenceIdeal.Hand

end
-- ==== Proof.lean ====
/-
  The certificate: the device program, its idealization and the host reference run and keep their arguments; the
  idealization rewrote nothing; and at the ideal values the device program and the reference end with the same
  result.

  Both compute the same network: three graph-convolution layers (gather the source nodes' features, add them into
  the destination nodes, two dense layers of features + aggregate), a sum pooling over graphs and a two-layer
  readout.  The device program runs the dense layers in four device regions, ten row blocks at a time, with the
  products into zero accumulators and casts to a narrower float format between them; at the ideal values a cast
  is the identity, a product into a zero accumulator is the plain sum the host's product is, and a row of a
  layer's output depends only on the same row of its inputs, so the blocks are the row blocks of one array-level
  function.  The gather and the scatter-adds are the same host operations in both programs.  No law of the
  extended reals beyond this re-reading is used, and the precondition is not needed.
-/
import proofs.«118180_j22376779612621_1_alg».proof.Defs
import proofs.«118180_j22376779612621_1_alg».proof.Proof.Gen.Kernel
import proofs.«118180_j22376779612621_1_alg».proof.Proof.Gen.Kernel.Frame
import proofs.«118180_j22376779612621_1_alg».proof.Proof.Gen.KernelIdeal
import proofs.«118180_j22376779612621_1_alg».proof.Proof.Gen.KernelIdeal.Frame
import proofs.«118180_j22376779612621_1_alg».proof.Proof.Gen.ReferenceIdeal
import proofs.«118180_j22376779612621_1_alg».proof.Proof.Gen.ReferenceIdeal.Run
import proofs.«118180_j22376779612621_1_alg».proof.Proof.Gen.Pre_finite_inputs
import proofs.«118180_j22376779612621_1_alg».proof.Proof.KernelRun
import proofs.«118180_j22376779612621_1_alg».proof.Proof.KernelChain
import proofs.«118180_j22376779612621_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the (agreeing) argument arrays. -/
theorem algebraic : Cert.algebraic_KernelIdeal_ReferenceIdeal := by
  intro m ρ m' ρ' _ hagree
  refine ⟨fun c => Cert.Gin.gin (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Hand.W8_v72 m ρ c), (h c).2⟩)
      (Cert.KernelIdeal.Hand.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Hand.ref_eq]
    obtain ⟨e0, e1, e2, e3, e4, e5, e6, e7, e8, e9, e10⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
